-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640x16x256 : Shape := ⟨3, ![640, 16, 256]⟩
abbrev S8192x16x256 : Shape := ⟨3, ![8192, 16, 256]⟩
abbrev S640 : Shape := ⟨1, ![640]⟩
abbrev S_ : Shape := ⟨0, ![]⟩

class Facts : Prop where
  bcast_S_S640x16x256 : S_.BroadcastsInDim S640x16x256 (![] : Fin 0 → Fin S640x16x256.rank)
  reducesTo_S640x16x256_S_d0_1_2 : S640x16x256.ReducesTo [0, 1, 2] S_
  h_S_ : 0 < S_.numel
  bcast_S_S8192x16x256 : S_.BroadcastsInDim S8192x16x256 (![] : Fin 0 → Fin S8192x16x256.rank)
  reducesTo_S8192x16x256_S_d0_1_2 : S8192x16x256.ReducesTo [0, 1, 2] S_

variable [Facts]

def fn {F : FTy → Type} [FloatOps F] (main_arg0 : FVec F S640x16x256 .f32) (main_arg1 : FVec F S8192x16x256 .f32) (main_arg2 : IVec S640 32) : IVec S_ 1 :=
  let main_v0 : FVec F S640x16x256 .f32 := Host.absf main_arg0
  let main_cst : FVec F S_ .f32 := constant S_ .f32 0x7F800000#32
  let main_v1 : FVec F S640x16x256 .f32 := broadcastInDim S640x16x256 ![] bcast_S_S640x16x256 main_cst
  let main_v2 : IVec S640x16x256 1 := cmpf .olt main_v0 main_v1
  let main_c : IVec S_ 1 := constantI S_ 1 1#1
  let main_v3 : IVec S_ 1 := (fun x v => Host.reduce IntOp.andi x v reducesTo_S640x16x256_S_d0_1_2 h_S_) main_v2 main_c
  let main_v4 : FVec F S8192x16x256 .f32 := Host.absf main_arg1
  let main_cst_0 : FVec F S_ .f32 := constant S_ .f32 0x7F800000#32
  let main_v5 : FVec F S8192x16x256 .f32 := broadcastInDim S8192x16x256 ![] bcast_S_S8192x16x256 main_cst_0
  let main_v6 : IVec S8192x16x256 1 := cmpf .olt main_v4 main_v5
  let main_c_1 : IVec S_ 1 := constantI S_ 1 1#1
  let main_v7 : IVec S_ 1 := (fun x v => Host.reduce IntOp.andi x v reducesTo_S8192x16x256_S_d0_1_2 h_S_) main_v6 main_c_1
  let main_v8 : IVec S_ 1 := andi main_v3 main_v7
  main_v8
-- ==== Kernel.lean ====
abbrev S640x16x256 : Shape := ⟨3, ![640, 16, 256]⟩
abbrev S8192x16x256 : Shape := ⟨3, ![8192, 16, 256]⟩
abbrev S640 : Shape := ⟨1, ![640]⟩
abbrev S_ : Shape := ⟨0, ![]⟩
abbrev S64x16x256 : Shape := ⟨3, ![64, 16, 256]⟩
abbrev S640x1 : Shape := ⟨2, ![640, 1]⟩
abbrev S64 : Shape := ⟨1, ![64]⟩
abbrev S64x1x1 : Shape := ⟨3, ![64, 1, 1]⟩
abbrev S64x16 : Shape := ⟨2, ![64, 16]⟩
abbrev S64x16x1 : Shape := ⟨3, ![64, 16, 1]⟩
abbrev S16x64x256 : Shape := ⟨3, ![16, 64, 256]⟩
abbrev S1024x256 : Shape := ⟨2, ![1024, 256]⟩
abbrev S8192x64 : Shape := ⟨2, ![8192, 64]⟩
abbrev S128x16x256 : Shape := ⟨3, ![128, 16, 256]⟩
abbrev S128x64 : Shape := ⟨2, ![128, 64]⟩
abbrev S128x16 : Shape := ⟨2, ![128, 16]⟩
abbrev S128x16x1 : Shape := ⟨3, ![128, 16, 1]⟩
abbrev S2048x256 : Shape := ⟨2, ![2048, 256]⟩
abbrev S2048x1024 : Shape := ⟨2, ![2048, 1024]⟩
abbrev S128x16x1024 : Shape := ⟨3, ![128, 16, 1024]⟩
abbrev S128x16x16x64 : Shape := ⟨4, ![128, 16, 16, 64]⟩
abbrev S128x16x64 : Shape := ⟨3, ![128, 16, 64]⟩

abbrev nBuf : Space → Nat
  | .hbm => 33
  | .vmem => 5
  | .smem => 0
  | _ => 0

abbrev bufTy : (tb : Table) → Fin (tcTables nBuf tb) → BufTy
  | .hbm, ⟨0, _⟩ => ⟨S640x16x256, .f32⟩
  | .hbm, ⟨1, _⟩ => ⟨S8192x16x256, .f32⟩
  | .hbm, ⟨2, _⟩ => ⟨S640, .i32⟩
  | .hbm, ⟨3, _⟩ => ⟨S_, .f32⟩
  | .hbm, ⟨4, _⟩ => ⟨S64x16x256, .f32⟩
  | .hbm, ⟨5, _⟩ => ⟨S640x1, .i32⟩
  | .hbm, ⟨6, _⟩ => ⟨S64x16x256, .f32⟩
  | .hbm, ⟨7, _⟩ => ⟨S_, .f32⟩
  | .hbm, ⟨8, _⟩ => ⟨S640, .f32⟩
  | .hbm, ⟨9, _⟩ => ⟨S_, .f32⟩
  | .hbm, ⟨10, _⟩ => ⟨S64, .f32⟩
  | .hbm, ⟨11, _⟩ => ⟨S640x1, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64x1x1, .f32⟩
  | .hbm, ⟨17, _⟩ => ⟨S64x16x256, .f32⟩
  | .hbm, ⟨18, _⟩ => ⟨S64x16x256, .f32⟩
  | .hbm, ⟨19, _⟩ => ⟨S64x16x256, .f32⟩
  | .hbm, ⟨20, _⟩ => ⟨S_, .f32⟩
  | .hbm, ⟨21, _⟩ => ⟨S64x16, .f32⟩
  | .hbm, ⟨22, _⟩ => ⟨S64x16x1, .f32⟩
  | .hbm, ⟨23, _⟩ => ⟨S64x16x1, .f32⟩
  | .hbm, ⟨24, _⟩ => ⟨S_, .f32⟩
  | .hbm, ⟨25, _⟩ => ⟨S64x16x1, .f32⟩
  | .hbm, ⟨26, _⟩ => ⟨S64x16x1, .f32⟩
  | .hbm, ⟨27, _⟩ => ⟨S64x16x256, .f32⟩
  | .hbm, ⟨28, _⟩ => ⟨S64x16x256, .f32⟩
  | .hbm, ⟨29, _⟩ => ⟨S16x64x256, .f32⟩
  | .hbm, ⟨30, _⟩ => ⟨S1024x256, .f32⟩
  | .hbm, ⟨31, _⟩ => ⟨S1024x256, .bf16⟩
  | .hbm, ⟨32, _⟩ => ⟨S8192x64, .f32⟩
  | .local _ .vmem, ⟨0, _⟩ => ⟨S128x16x256, .f32⟩
  | .local _ .vmem, ⟨1, _⟩ => ⟨S128x16x256, .f32⟩
  | .local _ .vmem, ⟨2, _⟩ => ⟨S1024x256, .bf16⟩
  | .local _ .vmem, ⟨3, _⟩ => ⟨S128x64, .f32⟩
  | .local _ .vmem, ⟨4, _⟩ => ⟨S128x64, .f32⟩
  | _, _ => ⟨S640x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x16x256 : S_.BroadcastsInDim S64x16x256 (![] : Fin 0 → Fin S64x16x256.rank)
  bcast_S640_S640x1_0 : S640.BroadcastsInDim S640x1 (![0] : Fin 1 → Fin S640x1.rank)
  bcast_S_S640 : S_.BroadcastsInDim S640 (![] : Fin 0 → Fin S640.rank)
  bcast_S_S64 : S_.BroadcastsInDim S64 (![] : Fin 0 → Fin S64.rank)
  bcast_S64_S64x1x1_0 : S64.BroadcastsInDim S64x1x1 (![0] : Fin 1 → Fin S64x1x1.rank)
  bcast_S64x1x1_S64x16x256_0_1_2 : S64x1x1.BroadcastsInDim S64x16x256 (![0, 1, 2] : Fin 3 → Fin S64x16x256.rank)
  reducesTo_S64x16x256_S64x16_d2 : S64x16x256.ReducesTo [2] S64x16
  h_S_ : 0 < S_.numel
  bcast_S64x16_S64x16x1_0_1 : S64x16.BroadcastsInDim S64x16x1 (![0, 1] : Fin 2 → Fin S64x16x1.rank)
  bcast_S_S64x16x1 : S_.BroadcastsInDim S64x16x1 (![] : Fin 0 → Fin S64x16x1.rank)
  bcast_S64x16x1_S64x16x256_0_1_2 : S64x16x1.BroadcastsInDim S64x16x256 (![0, 1, 2] : Fin 3 → Fin S64x16x256.rank)
  transposes_S64x16x256_S16x64x256_1_0_2 : S64x16x256.Transposes [1, 0, 2] S16x64x256
  shapeCasts_S16x64x256_S1024x256 : S16x64x256.ShapeCasts S1024x256
  bitsLt_bf16_f32 : FTy.bits .bf16 < FTy.bits .f32
  inb_S128x16x256_S128x16x256_0_0_0 : ∀ a, (![0, 0, 0] : Fin 3 → Nat) a + S128x16x256.size a ≤ S128x16x256.size a
  h_S128x16x256 : 0 < S128x16x256.numel
  reduces_S128x16x256_S128x16 : S128x16x256.Reduces [2] S128x16
  shapeCasts_S128x16_S128x16x1 : S128x16.ShapeCasts S128x16x1
  broadcasts_S128x16x1_S128x16x256 : S128x16x1.Broadcasts S128x16x256
  shapeCasts_S128x16x256_S2048x256 : S128x16x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S2048x1024_S128x16x1024 : S2048x1024.ShapeCasts S128x16x1024
  shapeCasts_S128x16x1024_S128x16x16x64 : S128x16x1024.ShapeCasts S128x16x16x64
  reduces_S128x16x16x64_S128x16x64 : S128x16x16x64.Reduces [2] S128x16x64
  reduces_S128x16x64_S128x64 : S128x16x64.Reduces [1] S128x64
  reduces_S128x16x16x64_S128x16x64_2 : S128x16x16x64.Reduces [1] S128x16x64
  inb_S128x64_S128x64_0_0 : ∀ a, (![0, 0] : Fin 2 → Nat) a + S128x64.size a ≤ S128x64.size a
  h_S128x64 : 0 < S128x64.numel
  scatter_S64x16x256_S640x1_S640x16x256_12_0_0_1_wf : ScatterDims.WF S64x16x256 S640x1 S640x16x256 [1, 2] [0] [0] 1
  scatter_S64_S640x1_S640_n_0_0_1_wf : ScatterDims.WF S64 S640x1 S640 [] [0] [0] 1
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x256.size a ≤ S8192x16x256.size a
  hwx0_0 : ∀ i : grid0.Coords, EltTy.bits .f32 = 32 ∨ (Rect.block (s := S8192x16x256) S128x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S8192x64.size a
  hwx0_2 : ∀ i : grid0.Coords, EltTy.bits .f32 = 32 ∨ (Rect.block (s := S8192x64) S128x64.size (cc0_transform_2 i) (hinb0_2 i)).WholeWords (EltTy.packing .f32)

variable [Facts₀]

def scatter_S64x16x256_S640x1_S640x16x256_12_0_0_1 : ScatterDims S64x16x256 S640x1 S640x16x256 where
  updateWindowDims := [1, 2]
  insertedWindowDims := [0]
  scatterDimsToOperandDims := [0]
  indexVectorDim := 1
  wf := scatter_S64x16x256_S640x1_S640x16x256_12_0_0_1_wf
def scatter_S64_S640x1_S640_n_0_0_1 : ScatterDims S64 S640x1 S640 where
  updateWindowDims := []
  insertedWindowDims := [0]
  scatterDimsToOperandDims := [0]
  indexVectorDim := 1
  wf := scatter_S64_S640x1_S640_n_0_0_1_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg1) S128x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S640x16x256 : Shape := ⟨3, ![640, 16, 256]⟩
abbrev S8192x16x256 : Shape := ⟨3, ![8192, 16, 256]⟩
abbrev S640 : Shape := ⟨1, ![640]⟩
abbrev S_ : Shape := ⟨0, ![]⟩
abbrev S64x16x256 : Shape := ⟨3, ![64, 16, 256]⟩
abbrev S640x1 : Shape := ⟨2, ![640, 1]⟩
abbrev S64 : Shape := ⟨1, ![64]⟩
abbrev S64x1x1 : Shape := ⟨3, ![64, 1, 1]⟩
abbrev S8192x16 : Shape := ⟨2, ![8192, 16]⟩
abbrev S8192x16x1 : Shape := ⟨3, ![8192, 16, 1]⟩
abbrev S64x16 : Shape := ⟨2, ![64, 16]⟩
abbrev S64x16x1 : Shape := ⟨3, ![64, 16, 1]⟩
abbrev S64x16x8192x16 : Shape := ⟨4, ![64, 16, 8192, 16]⟩
abbrev S8192x64x16x16 : Shape := ⟨4, ![8192, 64, 16, 16]⟩
abbrev S8192x64x16 : Shape := ⟨3, ![8192, 64, 16]⟩
abbrev S8192x64 : Shape := ⟨2, ![8192, 64]⟩

abbrev nBuf : Space → Nat
  | .hbm => 53
  | .vmem => 0
  | .smem => 0
  | _ => 0

abbrev bufTy : (tb : Table) → Fin (tcTables nBuf tb) → BufTy
  | .hbm, ⟨0, _⟩ => ⟨S640x16x256, .f32⟩
  | .hbm, ⟨1, _⟩ => ⟨S8192x16x256, .f32⟩
  | .hbm, ⟨2, _⟩ => ⟨S640, .i32⟩
  | .hbm, ⟨3, _⟩ => ⟨S_, .f32⟩
  | .hbm, ⟨4, _⟩ => ⟨S64x16x256, .f32⟩
  | .hbm, ⟨5, _⟩ => ⟨S640x1, .i32⟩
  | .hbm, ⟨6, _⟩ => ⟨S64x16x256, .f32⟩
  | .hbm, ⟨7, _⟩ => ⟨S_, .f32⟩
  | .hbm, ⟨8, _⟩ => ⟨S640, .f32⟩
  | .hbm, ⟨9, _⟩ => ⟨S_, .f32⟩
  | .hbm, ⟨10, _⟩ => ⟨S64, .f32⟩
  | .hbm, ⟨11, _⟩ => ⟨S640x1, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64x1x1, .f32⟩
  | .hbm, ⟨17, _⟩ => ⟨S64x16x256, .f32⟩
  | .hbm, ⟨18, _⟩ => ⟨S64x16x256, .f32⟩
  | .hbm, ⟨19, _⟩ => ⟨S8192x16x256, .f32⟩
  | .hbm, ⟨20, _⟩ => ⟨S_, .f32⟩
  | .hbm, ⟨21, _⟩ => ⟨S8192x16, .f32⟩
  | .hbm, ⟨22, _⟩ => ⟨S8192x16x1, .f32⟩
  | .hbm, ⟨23, _⟩ => ⟨S8192x16x1, .f32⟩
  | .hbm, ⟨24, _⟩ => ⟨S_, .f32⟩
  | .hbm, ⟨25, _⟩ => ⟨S8192x16x1, .f32⟩
  | .hbm, ⟨26, _⟩ => ⟨S8192x16x1, .f32⟩
  | .hbm, ⟨27, _⟩ => ⟨S8192x16x256, .f32⟩
  | .hbm, ⟨28, _⟩ => ⟨S8192x16x256, .f32⟩
  | .hbm, ⟨29, _⟩ => ⟨S64x16x256, .f32⟩
  | .hbm, ⟨30, _⟩ => ⟨S_, .f32⟩
  | .hbm, ⟨31, _⟩ => ⟨S64x16, .f32⟩
  | .hbm, ⟨32, _⟩ => ⟨S64x16x1, .f32⟩
  | .hbm, ⟨33, _⟩ => ⟨S64x16x1, .f32⟩
  | .hbm, ⟨34, _⟩ => ⟨S_, .f32⟩
  | .hbm, ⟨35, _⟩ => ⟨S64x16x1, .f32⟩
  | .hbm, ⟨36, _⟩ => ⟨S64x16x1, .f32⟩
  | .hbm, ⟨37, _⟩ => ⟨S64x16x256, .f32⟩
  | .hbm, ⟨38, _⟩ => ⟨S64x16x256, .f32⟩
  | .hbm, ⟨39, _⟩ => ⟨S64x16x8192x16, .f32⟩
  | .hbm, ⟨40, _⟩ => ⟨S8192x64x16x16, .f32⟩
  | .hbm, ⟨41, _⟩ => ⟨S_, .f32⟩
  | .hbm, ⟨42, _⟩ => ⟨S8192x64x16x16, .f32⟩
  | .hbm, ⟨43, _⟩ => ⟨S8192x64x16x16, .f32⟩
  | .hbm, ⟨44, _⟩ => ⟨S_, .f32⟩
  | .hbm, ⟨45, _⟩ => ⟨S8192x64x16, .f32⟩
  | .hbm, ⟨46, _⟩ => ⟨S_, .f32⟩
  | .hbm, ⟨47, _⟩ => ⟨S8192x64, .f32⟩
  | .hbm, ⟨48, _⟩ => ⟨S_, .f32⟩
  | .hbm, ⟨49, _⟩ => ⟨S8192x64x16, .f32⟩
  | .hbm, ⟨50, _⟩ => ⟨S_, .f32⟩
  | .hbm, ⟨51, _⟩ => ⟨S8192x64, .f32⟩
  | .hbm, ⟨52, _⟩ => ⟨S8192x64, .f32⟩
  | _, _ => ⟨S640x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]

class Facts₀ : Prop where
  bcast_S_S64x16x256 : S_.BroadcastsInDim S64x16x256 (![] : Fin 0 → Fin S64x16x256.rank)
  bcast_S640_S640x1_0 : S640.BroadcastsInDim S640x1 (![0] : Fin 1 → Fin S640x1.rank)
  bcast_S_S640 : S_.BroadcastsInDim S640 (![] : Fin 0 → Fin S640.rank)
  bcast_S_S64 : S_.BroadcastsInDim S64 (![] : Fin 0 → Fin S64.rank)
  bcast_S64_S64x1x1_0 : S64.BroadcastsInDim S64x1x1 (![0] : Fin 1 → Fin S64x1x1.rank)
  bcast_S64x1x1_S64x16x256_0_1_2 : S64x1x1.BroadcastsInDim S64x16x256 (![0, 1, 2] : Fin 3 → Fin S64x16x256.rank)
  reducesTo_S8192x16x256_S8192x16_d2 : S8192x16x256.ReducesTo [2] S8192x16
  h_S_ : 0 < S_.numel
  bcast_S8192x16_S8192x16x1_0_1 : S8192x16.BroadcastsInDim S8192x16x1 (![0, 1] : Fin 2 → Fin S8192x16x1.rank)
  bcast_S_S8192x16x1 : S_.BroadcastsInDim S8192x16x1 (![] : Fin 0 → Fin S8192x16x1.rank)
  bcast_S8192x16x1_S8192x16x256_0_1_2 : S8192x16x1.BroadcastsInDim S8192x16x256 (![0, 1, 2] : Fin 3 → Fin S8192x16x256.rank)
  reducesTo_S64x16x256_S64x16_d2 : S64x16x256.ReducesTo [2] S64x16
  bcast_S64x16_S64x16x1_0_1 : S64x16.BroadcastsInDim S64x16x1 (![0, 1] : Fin 2 → Fin S64x16x1.rank)
  bcast_S_S64x16x1 : S_.BroadcastsInDim S64x16x1 (![] : Fin 0 → Fin S64x16x1.rank)
  bcast_S64x16x1_S64x16x256_0_1_2 : S64x16x1.BroadcastsInDim S64x16x256 (![0, 1, 2] : Fin 3 → Fin S64x16x256.rank)
  transposes_S64x16x8192x16_S8192x64x16x16_2_0_3_1 : S64x16x8192x16.Transposes [2, 0, 3, 1] S8192x64x16x16
  bcast_S_S8192x64x16x16 : S_.BroadcastsInDim S8192x64x16x16 (![] : Fin 0 → Fin S8192x64x16x16.rank)
  reducesTo_S8192x64x16x16_S8192x64x16_d3 : S8192x64x16x16.ReducesTo [3] S8192x64x16
  reducesTo_S8192x64x16_S8192x64_d2 : S8192x64x16.ReducesTo [2] S8192x64
  reducesTo_S8192x64x16x16_S8192x64x16_d2 : S8192x64x16x16.ReducesTo [2] S8192x64x16
  scatter_S64x16x256_S640x1_S640x16x256_12_0_0_1_wf : ScatterDims.WF S64x16x256 S640x1 S640x16x256 [1, 2] [0] [0] 1
  scatter_S64_S640x1_S640_n_0_0_1_wf : ScatterDims.WF S64 S640x1 S640 [] [0] [0] 1
  dot_S64x16x256_S8192x16x256_S64x16x8192x16_2_2_01_01_n_n_wf : DotDims.WF S64x16x256 S8192x16x256 S64x16x8192x16 [2] [2] [0, 1] [0, 1] [] []

variable [Facts₀]

def scatter_S64x16x256_S640x1_S640x16x256_12_0_0_1 : ScatterDims S64x16x256 S640x1 S640x16x256 where
  updateWindowDims := [1, 2]
  insertedWindowDims := [0]
  scatterDimsToOperandDims := [0]
  indexVectorDim := 1
  wf := scatter_S64x16x256_S640x1_S640x16x256_12_0_0_1_wf
def scatter_S64_S640x1_S640_n_0_0_1 : ScatterDims S64 S640x1 S640 where
  updateWindowDims := []
  insertedWindowDims := [0]
  scatterDimsToOperandDims := [0]
  indexVectorDim := 1
  wf := scatter_S64_S640x1_S640_n_0_0_1_wf
def dot_S64x16x256_S8192x16x256_S64x16x8192x16_2_2_01_01_n_n : DotDims S64x16x256 S8192x16x256 S64x16x8192x16 where
  lhsContracting := [2]
  rhsContracting := [2]
  lhsNonContracting := [0, 1]
  rhsNonContracting := [0, 1]
  lhsBatch := []
  rhsBatch := []
  wf := dot_S64x16x256_S8192x16x256_S64x16x8192x16_2_2_01_01_n_n_wf

class Facts : Prop extends Facts₀ where

variable [Facts]
-- ==== Proof.ReferenceRun.lean ====
/-
  The reference program, run: every execution of it ends with the result array at the matching distances,
  written as three stages of its own operations, and with its arguments unchanged.

  The reference computes the scaled class prototypes (`protos`: per class the sum of its support sequences
  over the larger of the class's count and one, then every row over the larger of its norm and the floor),
  the scaled queries (`queries`: every row over the larger of its norm and the floor), the cube of cosine
  distances (`cube`: one minus the contraction of prototypes against queries over the features, transposed
  to query, class, query step, prototype step), and the two sums of minima (`twoSums`: the minimum along the
  prototype steps summed over the query steps, plus the minimum along the query steps summed over the
  prototype steps). `ops` lists the program's fifty operations in order, the two calls of the norm function
  written out at their call sites; the program is that list run in order (`main_eq`), so each buffer ends
  at the list's composed function of the launch contents (`run`).
-/
import proofs.«109848_j29283087024824_2_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen
open Idealize.ShloMosaic Idealize.ShloMosaic.TcCoe Idealize.SL.Sem Idealize.ShloMosaic.StableHlo

/-! ## The stages -/

/-- The class means: per class the sum of its support sequences over the larger of its count and one. -/
def means (a0 : FVec Ideal S640x16x256 .f32) (a2 : IVec S640 32) : FVec Ideal S64x16x256 .f32 :=
  Host.divf (F := Ideal)
    (Host.scatterAdd (F := Ideal) scatter_S64x16x256_S640x1_S640x16x256_12_0_0_1
      (broadcastInDim S64x16x256 ![] bcast_S_S64x16x256 (constant (F := Ideal) S_ .f32 0x00000000#32))
      (broadcastInDim S640x1 ![0] bcast_S640_S640x1_0 a2) a0)
    (broadcastInDim S64x16x256 ![0, 1, 2] bcast_S64x1x1_S64x16x256_0_1_2
      (broadcastInDim S64x1x1 ![0] bcast_S64_S64x1x1_0
        (maximumf
          (Host.scatterAdd (F := Ideal) scatter_S64_S640x1_S640_n_0_0_1
            (broadcastInDim S64 ![] bcast_S_S64 (constant (F := Ideal) S_ .f32 0x00000000#32))
            (broadcastInDim S640x1 ![0] bcast_S640_S640x1_0 a2)
            (broadcastInDim S640 ![] bcast_S_S640 (constant (F := Ideal) S_ .f32 0x3F800000#32)))
          (broadcastInDim S64 ![] bcast_S_S64 (constant (F := Ideal) S_ .f32 0x3F800000#32)))))

/-- The scaled prototypes: every row of a class mean over the larger of its Euclidean norm and the floor. -/
def protos (a0 : FVec Ideal S640x16x256 .f32) (a2 : IVec S640 32) : FVec Ideal S64x16x256 .f32 :=
  Host.divf (F := Ideal) (means a0 a2)
    (broadcastInDim S64x16x256 ![0, 1, 2] bcast_S64x16x1_S64x16x256_0_1_2
      (maximumf
        (Host.sqrt (F := Ideal)
          (broadcastInDim S64x16x1 ![0, 1] bcast_S64x16_S64x16x1_0_1
            (Host.reduceAdd (F := Ideal) (mulf (means a0 a2) (means a0 a2)) (constant (F := Ideal) S_ .f32 0x00000000#32)
              reducesTo_S64x16x256_S64x16_d2 h_S_)))
        (broadcastInDim S64x16x1 ![] bcast_S_S64x16x1 (constant (F := Ideal) S_ .f32 0x2B8CBCCC#32))))

/-- The scaled queries: every row of the query array over the larger of its Euclidean norm and the floor. -/
def queries (a1 : FVec Ideal S8192x16x256 .f32) : FVec Ideal S8192x16x256 .f32 :=
  Host.divf (F := Ideal) a1
    (broadcastInDim S8192x16x256 ![0, 1, 2] bcast_S8192x16x1_S8192x16x256_0_1_2
      (maximumf
        (Host.sqrt (F := Ideal)
          (broadcastInDim S8192x16x1 ![0, 1] bcast_S8192x16_S8192x16x1_0_1
            (Host.reduceAdd (F := Ideal) (mulf a1 a1) (constant (F := Ideal) S_ .f32 0x00000000#32)
              reducesTo_S8192x16x256_S8192x16_d2 h_S_)))
        (broadcastInDim S8192x16x1 ![] bcast_S_S8192x16x1 (constant (F := Ideal) S_ .f32 0x2B8CBCCC#32))))

/-- The cube of cosine distances, indexed by query, class, query step, prototype step. -/
def cube (P : FVec Ideal S64x16x256 .f32) (Q : FVec Ideal S8192x16x256 .f32) : FVec Ideal S8192x64x16x16 .f32 :=
  subf (broadcastInDim S8192x64x16x16 ![] bcast_S_S8192x64x16x16 (constant (F := Ideal) S_ .f32 0x3F800000#32))
    (transpose S8192x64x16x16 [2, 0, 3, 1] (Host.dotGeneral (F := Ideal) dot_S64x16x256_S8192x16x256_S64x16x8192x16_2_2_01_01_n_n none P Q)
      transposes_S64x16x8192x16_S8192x64x16x16_2_0_3_1)

/-- The minimum along the prototype steps summed over the query steps, plus the minimum along the query steps
    summed over the prototype steps. -/
def twoSums (D : FVec Ideal S8192x64x16x16 .f32) : FVec Ideal S8192x64 .f32 :=
  addf
    (Host.reduceAdd (F := Ideal)
      (Host.reduce (FloatOps.minimumf (F := Ideal) (φ := .f32)) D (constant (F := Ideal) S_ .f32 0x7F800000#32)
        reducesTo_S8192x64x16x16_S8192x64x16_d3 h_S_)
      (constant (F := Ideal) S_ .f32 0x00000000#32) reducesTo_S8192x64x16_S8192x64_d2 h_S_)
    (Host.reduceAdd (F := Ideal)
      (Host.reduce (FloatOps.minimumf (F := Ideal) (φ := .f32)) D (constant (F := Ideal) S_ .f32 0x7F800000#32)
        reducesTo_S8192x64x16x16_S8192x64x16_d2 h_S_)
      (constant (F := Ideal) S_ .f32 0x00000000#32) reducesTo_S8192x64x16_S8192x64_d2 h_S_)

/-- The reference's result as a function of its three arguments. -/
def result (a0 : FVec Ideal S640x16x256 .f32) (a1 : FVec Ideal S8192x16x256 .f32) (a2 : IVec S640 32) :
    FVec Ideal S8192x64 .f32 :=
  twoSums (cube (protos a0 a2) (queries a1))

/-! ## The program as a list of operations, and its run -/

variable {F : FTy → Type} [FloatOps F]

/-- The program's fifty operations, in order; the norm function's five operations stand at each of its two calls,
    over that call's buffers. -/
abbrev ops : List (HloOp τ sig (Elt F)) :=
  [ nullary main_cst (constant S_ .f32 0x00000000#32),
    unary main_cst main_v0 (broadcastInDim S64x16x256 ![] bcast_S_S64x16x256 : (⟨S_, .f32⟩ : BufTy).Contents (Elt F) → (⟨S64x16x256, .f32⟩ : BufTy).Contents (Elt F)),
    unary main_arg2 main_v1 (broadcastInDim S640x1 ![0] bcast_S640_S640x1_0 : (⟨S640, .i32⟩ : BufTy).Contents (Elt F) → (⟨S640x1, .i32⟩ : BufTy).Contents (Elt F)),
    ternary main_v0 main_v1 main_arg0 main_v2 ((fun x i u => Host.scatterAdd scatter_S64x16x256_S640x1_S640x16x256_12_0_0_1 x i u) : (⟨S64x16x256, .f32⟩ : BufTy).Contents (Elt F) → (⟨S640x1, .i32⟩ : BufTy).Contents (Elt F) → (⟨S640x16x256, .f32⟩ : BufTy).Contents (Elt F) → (⟨S64x16x256, .f32⟩ : BufTy).Contents (Elt F)),
    nullary main_cst_0 (constant S_ .f32 0x3F800000#32),
    unary main_cst_0 main_v3 (broadcastInDim S640 ![] bcast_S_S640 : (⟨S_, .f32⟩ : BufTy).Contents (Elt F) → (⟨S640, .f32⟩ : BufTy).Contents (Elt F)),
    nullary main_cst_1 (constant S_ .f32 0x00000000#32),
    unary main_cst_1 main_v4 (broadcastInDim S64 ![] bcast_S_S64 : (⟨S_, .f32⟩ : BufTy).Contents (Elt F) → (⟨S64, .f32⟩ : BufTy).Contents (Elt F)),
    unary main_arg2 main_v5 (broadcastInDim S640x1 ![0] bcast_S640_S640x1_0 : (⟨S640, .i32⟩ : BufTy).Contents (Elt F) → (⟨S640x1, .i32⟩ : BufTy).Contents (Elt F)),
    ternary main_v4 main_v5 main_v3 main_v6 ((fun x i u => Host.scatterAdd scatter_S64_S640x1_S640_n_0_0_1 x i u) : (⟨S64, .f32⟩ : BufTy).Contents (Elt F) → (⟨S640x1, .i32⟩ : BufTy).Contents (Elt F) → (⟨S640, .f32⟩ : BufTy).Contents (Elt F) → (⟨S64, .f32⟩ : BufTy).Contents (Elt F)),
    nullary main_cst_2 (constant S_ .f32 0x3F800000#32),
    unary main_cst_2 main_v7 (broadcastInDim S64 ![] bcast_S_S64 : (⟨S_, .f32⟩ : BufTy).Contents (Elt F) → (⟨S64, .f32⟩ : BufTy).Contents (Elt F)),
    binary main_v6 main_v7 main_v8 (maximumf : (⟨S64, .f32⟩ : BufTy).Contents (Elt F) → (⟨S64, .f32⟩ : BufTy).Contents (Elt F) → (⟨S64, .f32⟩ : BufTy).Contents (Elt F)),
    unary main_v8 main_v9 (broadcastInDim S64x1x1 ![0] bcast_S64_S64x1x1_0 : (⟨S64, .f32⟩ : BufTy).Contents (Elt F) → (⟨S64x1x1, .f32⟩ : BufTy).Contents (Elt F)),
    unary main_v9 main_v10 (broadcastInDim S64x16x256 ![0, 1, 2] bcast_S64x1x1_S64x16x256_0_1_2 : (⟨S64x1x1, .f32⟩ : BufTy).Contents (Elt F) → (⟨S64x16x256, .f32⟩ : BufTy).Contents (Elt F)),
    binary main_v2 main_v10 main_v11 (Host.divf : (⟨S64x16x256, .f32⟩ : BufTy).Contents (Elt F) → (⟨S64x16x256, .f32⟩ : BufTy).Contents (Elt F) → (⟨S64x16x256, .f32⟩ : BufTy).Contents (Elt F)),
    TRef.binary (.of main_arg1 : TRef sig ⟨S8192x16x256, .f32⟩) (.of main_arg1 : TRef sig ⟨S8192x16x256, .f32⟩) main_call0.v0 mulf,
    TRef.nullary main_call0.cst (constant S_ .f32 0x00000000#32),
    TRef.binary main_call0.v0 main_call0.cst main_call0.v1 (fun x v => Host.reduceAdd x v reducesTo_S8192x16x256_S8192x16_d2 h_S_),
    TRef.unary main_call0.v1 main_call0.v2 (broadcastInDim S8192x16x1 ![0, 1] bcast_S8192x16_S8192x16x1_0_1),
    TRef.unary main_call0.v2 main_call0.v3 Host.sqrt,
    nullary main_cst_3 (constant S_ .f32 0x2B8CBCCC#32),
    unary main_cst_3 main_v13 (broadcastInDim S8192x16x1 ![] bcast_S_S8192x16x1 : (⟨S_, .f32⟩ : BufTy).Contents (Elt F) → (⟨S8192x16x1, .f32⟩ : BufTy).Contents (Elt F)),
    binary main_v12 main_v13 main_v14 (maximumf : (⟨S8192x16x1, .f32⟩ : BufTy).Contents (Elt F) → (⟨S8192x16x1, .f32⟩ : BufTy).Contents (Elt F) → (⟨S8192x16x1, .f32⟩ : BufTy).Contents (Elt F)),
    unary main_v14 main_v15 (broadcastInDim S8192x16x256 ![0, 1, 2] bcast_S8192x16x1_S8192x16x256_0_1_2 : (⟨S8192x16x1, .f32⟩ : BufTy).Contents (Elt F) → (⟨S8192x16x256, .f32⟩ : BufTy).Contents (Elt F)),
    binary main_arg1 main_v15 main_v16 (Host.divf : (⟨S8192x16x256, .f32⟩ : BufTy).Contents (Elt F) → (⟨S8192x16x256, .f32⟩ : BufTy).Contents (Elt F) → (⟨S8192x16x256, .f32⟩ : BufTy).Contents (Elt F)),
    TRef.binary (.of main_v11 : TRef sig ⟨S64x16x256, .f32⟩) (.of main_v11 : TRef sig ⟨S64x16x256, .f32⟩) main_call1.v0 mulf,
    TRef.nullary main_call1.cst (constant S_ .f32 0x00000000#32),
    TRef.binary main_call1.v0 main_call1.cst main_call1.v1 (fun x v => Host.reduceAdd x v reducesTo_S64x16x256_S64x16_d2 h_S_),
    TRef.unary main_call1.v1 main_call1.v2 (broadcastInDim S64x16x1 ![0, 1] bcast_S64x16_S64x16x1_0_1),
    TRef.unary main_call1.v2 main_call1.v3 Host.sqrt,
    nullary main_cst_4 (constant S_ .f32 0x2B8CBCCC#32),
    unary main_cst_4 main_v18 (broadcastInDim S64x16x1 ![] bcast_S_S64x16x1 : (⟨S_, .f32⟩ : BufTy).Contents (Elt F) → (⟨S64x16x1, .f32⟩ : BufTy).Contents (Elt F)),
    binary main_v17 main_v18 main_v19 (maximumf : (⟨S64x16x1, .f32⟩ : BufTy).Contents (Elt F) → (⟨S64x16x1, .f32⟩ : BufTy).Contents (Elt F) → (⟨S64x16x1, .f32⟩ : BufTy).Contents (Elt F)),
    unary main_v19 main_v20 (broadcastInDim S64x16x256 ![0, 1, 2] bcast_S64x16x1_S64x16x256_0_1_2 : (⟨S64x16x1, .f32⟩ : BufTy).Contents (Elt F) → (⟨S64x16x256, .f32⟩ : BufTy).Contents (Elt F)),
    binary main_v11 main_v20 main_v21 (Host.divf : (⟨S64x16x256, .f32⟩ : BufTy).Contents (Elt F) → (⟨S64x16x256, .f32⟩ : BufTy).Contents (Elt F) → (⟨S64x16x256, .f32⟩ : BufTy).Contents (Elt F)),
    binary main_v21 main_v16 main_v22 ((fun l r => Host.dotGeneral dot_S64x16x256_S8192x16x256_S64x16x8192x16_2_2_01_01_n_n none l r) : (⟨S64x16x256, .f32⟩ : BufTy).Contents (Elt F) → (⟨S8192x16x256, .f32⟩ : BufTy).Contents (Elt F) → (⟨S64x16x8192x16, .f32⟩ : BufTy).Contents (Elt F)),
    unary main_v22 main_v23 ((transpose S8192x64x16x16 [2, 0, 3, 1] · transposes_S64x16x8192x16_S8192x64x16x16_2_0_3_1) : (⟨S64x16x8192x16, .f32⟩ : BufTy).Contents (Elt F) → (⟨S8192x64x16x16, .f32⟩ : BufTy).Contents (Elt F)),
    nullary main_cst_5 (constant S_ .f32 0x3F800000#32),
    unary main_cst_5 main_v24 (broadcastInDim S8192x64x16x16 ![] bcast_S_S8192x64x16x16 : (⟨S_, .f32⟩ : BufTy).Contents (Elt F) → (⟨S8192x64x16x16, .f32⟩ : BufTy).Contents (Elt F)),
    binary main_v24 main_v23 main_v25 (subf : (⟨S8192x64x16x16, .f32⟩ : BufTy).Contents (Elt F) → (⟨S8192x64x16x16, .f32⟩ : BufTy).Contents (Elt F) → (⟨S8192x64x16x16, .f32⟩ : BufTy).Contents (Elt F)),
    nullary main_cst_6 (constant S_ .f32 0x7F800000#32),
    binary main_v25 main_cst_6 main_v26 ((fun x v => Host.reduce FloatOps.minimumf x v reducesTo_S8192x64x16x16_S8192x64x16_d3 h_S_) : (⟨S8192x64x16x16, .f32⟩ : BufTy).Contents (Elt F) → (⟨S_, .f32⟩ : BufTy).Contents (Elt F) → (⟨S8192x64x16, .f32⟩ : BufTy).Contents (Elt F)),
    nullary main_cst_7 (constant S_ .f32 0x00000000#32),
    binary main_v26 main_cst_7 main_v27 ((fun x v => Host.reduceAdd x v reducesTo_S8192x64x16_S8192x64_d2 h_S_) : (⟨S8192x64x16, .f32⟩ : BufTy).Contents (Elt F) → (⟨S_, .f32⟩ : BufTy).Contents (Elt F) → (⟨S8192x64, .f32⟩ : BufTy).Contents (Elt F)),
    nullary main_cst_8 (constant S_ .f32 0x7F800000#32),
    binary main_v25 main_cst_8 main_v28 ((fun x v => Host.reduce FloatOps.minimumf x v reducesTo_S8192x64x16x16_S8192x64x16_d2 h_S_) : (⟨S8192x64x16x16, .f32⟩ : BufTy).Contents (Elt F) → (⟨S_, .f32⟩ : BufTy).Contents (Elt F) → (⟨S8192x64x16, .f32⟩ : BufTy).Contents (Elt F)),
    nullary main_cst_9 (constant S_ .f32 0x00000000#32),
    binary main_v28 main_cst_9 main_v29 ((fun x v => Host.reduceAdd x v reducesTo_S8192x64x16_S8192x64_d2 h_S_) : (⟨S8192x64x16, .f32⟩ : BufTy).Contents (Elt F) → (⟨S_, .f32⟩ : BufTy).Contents (Elt F) → (⟨S8192x64, .f32⟩ : BufTy).Contents (Elt F)),
    binary main_v27 main_v29 main_v30 (addf : (⟨S8192x64, .f32⟩ : BufTy).Contents (Elt F) → (⟨S8192x64, .f32⟩ : BufTy).Contents (Elt F) → (⟨S8192x64, .f32⟩ : BufTy).Contents (Elt F)) ]

set_option maxRecDepth 8192 in
/-- The program is that list run in order: the norm function's body unfolded at its two calls, both sides are one
    chain of steps once sequencing is re-associated. -/
theorem main_eq (c : Dev nD) : main (F := F) c = seq ops := by
  simp only [main, fn_norm.body, fn_norm_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches tensor buffers of the device only. -/
theorem ops_sub : (ops : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..,
    binary_bufs_sub .., unary_bufs_sub .., nullary_bufs_sub .., unary_bufs_sub .., binary_bufs_sub .., nullary_bufs_sub ..,
    binary_bufs_sub .., nullary_bufs_sub .., binary_bufs_sub .., nullary_bufs_sub .., binary_bufs_sub .., nullary_bufs_sub ..,
    binary_bufs_sub .., binary_bufs_sub ..⟩

set_option maxRecDepth 8192 in
set_option maxHeartbeats 2000000 in
/-- From any memory with zero counters every weakly fair execution of the reference terminates, with the result
    array at `result` of the three arguments and the arguments unchanged: the list's composed function at
    the result buffer is the three stages applied in turn. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
        = result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v30).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.Hand

end
-- ==== Proof.MatchingDistance.lean ====
/-
  The bidirectional matching distance between sequences, over the extended reals: the one function both
  programs compute.

  A query is a sequence of 16 rows of 256 numbers, a class prototype likewise. Each query row is scaled to
  unit length: divided by the larger of its Euclidean norm and a small constant. The distance of query step
  `t` and prototype step `s` is one minus the inner product of the scaled query row and the prototype row.
  The matching distance of the pair adds, over the query steps, the least distance to any prototype step,
  and, over the prototype steps, the least distance to any query step. The result array holds this number
  for each of 8192 queries and 64 classes.

  Nothing here mentions a program: the three constants are kept as the 32-bit words both programs write
  (the same word on both sides is never evaluated), the minimum is the extended reals' `min` — which is
  what `minimumf` is at the ideal values — folded from the word for +∞, and the sums are plain finite sums.
-/
import Idealize.ShloMosaic.PureOps.Ideal
import Idealize.ShloMosaic.PureOps.Ideal.Laws
import Idealize.ShloMosaic.Lib.ValueIdx

noncomputable section

namespace Cert.Matching

open Idealize.ShloMosaic Idealize.ShloMosaic.ValueIdx

/-- The floor under a row's norm, the word both programs write for 1e-12. -/
abbrev floorW : EReal := Ideal.ofBits .f32 0x2B8CBCCC#32
/-- The word for 1. -/
abbrev oneW : EReal := Ideal.ofBits .f32 0x3F800000#32
/-- The word for +∞, from which every minimum starts. -/
abbrev topW : EReal := Ideal.ofBits .f32 0x7F800000#32

/-- The least of sixteen extended reals, starting from +∞. -/
def least (f : Fin 16 → EReal) : EReal :=
  (Finset.univ : Finset (Fin 16)).fold (FloatOps.minimumf (F := Ideal) (φ := .f32)) topW f

/-- A row scaled to unit length: entry `d` over the larger of the row's Euclidean norm and the floor. -/
def unitRow (x : Fin 256 → EReal) (d : Fin 256) : EReal :=
  Ideal.div (x d) (max (Ideal.sqrt (∑ k : Fin 256, x k * x k)) floorW)

/-- The cosine distance of step `t` of a scaled query and step `s` of a prototype. -/
def cosDist (Q P : Fin 16 → Fin 256 → EReal) (t s : Fin 16) : EReal :=
  oneW - ∑ d : Fin 256, Q t d * P s d

/-- The matching distance of a scaled query and a prototype: over the query steps the least distance to a
    prototype step, plus over the prototype steps the least distance to a query step. -/
def matching (Q P : Fin 16 → Fin 256 → EReal) : EReal :=
  (∑ t : Fin 16, least fun s => cosDist Q P t s) + ∑ s : Fin 16, least fun t => cosDist Q P t s

/-- The result array: entry (q, c) is the matching distance of query `q`, its rows scaled to unit length,
    and prototype `c` of the table `P` of scaled prototypes. -/
def result (X : (⟨3, ![8192, 16, 256]⟩ : Shape).Idx → EReal) (P : (⟨3, ![64, 16, 256]⟩ : Shape).Idx → EReal) :
    (⟨2, ![8192, 64]⟩ : Shape).Idx → EReal := fun j =>
  matching (fun t => unitRow fun k => X (ix3 (j 0) t k)) (fun s d => P (ix3 (j 1) s d))

end Cert.Matching

end
-- ==== Proof.LibMinReduceSingle.lean ====
/-
  A minimum taken along ONE axis of an array of extended reals, read at a result index.

  At the ideal values `minimumf` is `min` on the extended reals, which commutes and associates, so a
  reduction by it does not depend on the order in which the source entries are visited: at a result index
  `j` it is the fold of `min`, from the accumulator's value, over the coordinates `k` of the reduced axis,
  the source read at `j` with `k` inserted on that axis. The library states this for `maximumf`; this is
  the same statement for `minimumf`, for a kernel's vector reduction, beside the host's one-operand reduce,
  so that a kernel's minimum and a reference's minimum over the same axis are literally one term.
-/
import Idealize.ShloMosaic.PureOps.Ideal.Laws
import Idealize.ShloMosaic.PureOps.Reduce

namespace Idealize.ShloMosaic.Ideal

variable {φ : FTy}

/-- A float vector reduction by `minimumf` over one axis, at the ideal values and at a result index `j`:
    the fold of `minimumf` (the extended reals' `min`) from the accumulator's value over that axis's
    coordinates, the source read at `j` with the coordinate inserted. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold (FloatOps.minimumf (F := Ideal) (φ := φ))
          (FloatOps.ofBits φ acc) (src ∘ h.lift j) := by
  rw [multiReduction_minimumf_eq_fold]
  exact h.fold_filter_drop_single _ _ src j

/-- The host's one-operand reduce by `minimumf` over one axis, likewise: the fold from the initial value's
    one element over that axis's coordinates. (`h'` is the fact the host operation carries; `h` the fact at
    the same shapes that names the inserted index.) -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold (FloatOps.minimumf (F := Ideal) (φ := φ))
          (init (Shape.Idx.first hu)) (x ∘ h.lift j) :=
  Host.reduce_eq_fold_single _ x init h' h hu j

end Idealize.ShloMosaic.Ideal
-- ==== Proof.ReferenceValue.lean ====
/-
  The reference's result, read index by index, is the matching distance `Matching.result` of the query
  array and of the reference's own table of scaled prototypes.

  `queries_apply`: entry (q, t, d) of the scaled queries is entry d of row (q, t) of the query array scaled
  to unit length — the host's sum along the features starts from the word for zero, which is 0.
  `contraction_entry`, `cube_apply`: entry (q, c, t, s) of the distance cube is one minus the sum over the
  features of prototype row (c, s) times scaled query row (q, t) (the contraction's result is indexed by
  class, prototype step, query, query step; the transposition brings it to query, class, query step,
  prototype step). `twoSums_apply`: a minimum along one axis is the fold of `min` over that axis's sixteen
  coordinates, a sum along one axis the sum over them. `reference_result` puts them together; the
  contraction multiplies prototype by query, the specification query by prototype, and products of
  extended reals commute. The table of scaled prototypes is never opened.
-/
import proofs.«109848_j29283087024824_2_alg».proof.Proof.ReferenceRun
import proofs.«109848_j29283087024824_2_alg».proof.Proof.MatchingDistance
import proofs.«109848_j29283087024824_2_alg».proof.Proof.LibMinReduceSingle
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.Hand
open Idealize.ShloMosaic Idealize.ShloMosaic.ValueIdx Cert.Matching

/-- Entry (q, t, d) of the scaled queries is entry d of row (q, t) scaled to unit length. -/
theorem queries_apply (a1 : FVec Ideal S8192x16x256 .f32) (q : Fin 8192) (t : Fin 16) (d : Fin 256) :
    queries a1 (ix3 q t d) = unitRow (fun k => a1 (ix3 q t k)) d := by
  have hred : S8192x16x256.Reduces [2] S8192x16 := by decide
  unfold queries unitRow
  refine (hostDivf_apply _ _ _).trans (congrArg (Ideal.div (a1 (ix3 q t d))) ?_)
  refine (broadcastInDim_apply _ bcast_S8192x16x1_S8192x16x256_0_1_2 _ (ix3 q t d) (ix3 q t 0) (fun a => ?_)).trans ?_
  · match a with
    | ⟨0, _⟩ => show q.val = if (8192 : Nat) = 1 then 0 else q.val; rw [if_neg (by decide)]
    | ⟨1, _⟩ => show t.val = if (16 : Nat) = 1 then 0 else t.val; rw [if_neg (by decide)]
    | ⟨2, _⟩ => show 0 = if (1 : Nat) = 1 then 0 else d.val; rw [if_pos rfl]
  refine (maximumf_apply _ _ _).trans (congrArg₂ max (congrArg Ideal.sqrt ?_) ?_)
  · refine (broadcastInDim_apply _ bcast_S8192x16_S8192x16x1_0_1 _ (ix3 q t 0) (ix2 q t) (fun a => ?_)).trans ?_
    · match a with
      | ⟨0, _⟩ => show q.val = if (8192 : Nat) = 1 then 0 else q.val; rw [if_neg (by decide)]
      | ⟨1, _⟩ => show t.val = if (16 : Nat) = 1 then 0 else t.val; rw [if_neg (by decide)]
    refine (hostReduceAdd_apply _ _ _ _ _).trans ?_
    refine (Ideal.hostReduceAdd_single reducesTo_S8192x16x256_S8192x16_d2 hred _ _ (ix2 q t)).trans ?_
    show Ideal.ofBits .f32 0x00000000#32 + _ = _
    rw [Ideal.ofBits_zero_f32, zero_add]
    refine Finset.sum_congr rfl fun k _ => ?_
    have e : hred.lift (ix2 q t) k = ix3 q t k :=
      funext fun a => Fin.ext (by match a with | ⟨0, _⟩ => rfl | ⟨1, _⟩ => rfl | ⟨2, _⟩ => rfl)
    show a1 (hred.lift (ix2 q t) k) * a1 (hred.lift (ix2 q t) k) = _
    rw [e]
    rfl
  · exact broadcastInDim_scalar_apply _ _ _

/-- The contraction's left operand index at result index i and contraction index k: class i₀, step i₁, feature k. -/
theorem lhs_class (i : S64x16x8192x16.Idx) (k : dot_S64x16x256_S8192x16x256_S64x16x8192x16_2_2_01_01_n_n.contr.Idx) : (dot_S64x16x256_S8192x16x256_S64x16x8192x16_2_2_01_01_n_n.lhsIdx i k 0).val = (i 0).val := by
  unfold DotDims.lhsIdx
  rw [dif_neg (show ¬(0 : Fin S64x16x256.rank) ∈ dot_S64x16x256_S8192x16x256_S64x16x8192x16_2_2_01_01_n_n.lhsBatch by decide),
    dif_pos (show (0 : Fin S64x16x256.rank) ∈ dot_S64x16x256_S8192x16x256_S64x16x8192x16_2_2_01_01_n_n.lhsNonContracting by decide)]
  rfl
theorem lhs_step (i : S64x16x8192x16.Idx) (k : dot_S64x16x256_S8192x16x256_S64x16x8192x16_2_2_01_01_n_n.contr.Idx) : (dot_S64x16x256_S8192x16x256_S64x16x8192x16_2_2_01_01_n_n.lhsIdx i k 1).val = (i 1).val := by
  unfold DotDims.lhsIdx
  rw [dif_neg (show ¬(1 : Fin S64x16x256.rank) ∈ dot_S64x16x256_S8192x16x256_S64x16x8192x16_2_2_01_01_n_n.lhsBatch by decide),
    dif_pos (show (1 : Fin S64x16x256.rank) ∈ dot_S64x16x256_S8192x16x256_S64x16x8192x16_2_2_01_01_n_n.lhsNonContracting by decide)]
  rfl
theorem lhs_feature (i : S64x16x8192x16.Idx) (k : dot_S64x16x256_S8192x16x256_S64x16x8192x16_2_2_01_01_n_n.contr.Idx) :
    (dot_S64x16x256_S8192x16x256_S64x16x8192x16_2_2_01_01_n_n.lhsIdx i k 2).val = (k ⟨0, by decide⟩).val :=
  dot_S64x16x256_S8192x16x256_S64x16x8192x16_2_2_01_01_n_n.lhsIdx_val_of_single rfl i k
/-- The right operand index: query i₂, step i₃, feature k. -/
theorem rhs_query (i : S64x16x8192x16.Idx) (k : dot_S64x16x256_S8192x16x256_S64x16x8192x16_2_2_01_01_n_n.contr.Idx) : (dot_S64x16x256_S8192x16x256_S64x16x8192x16_2_2_01_01_n_n.rhsIdx i k 0).val = (i 2).val := by
  unfold DotDims.rhsIdx
  rw [dif_neg (show ¬(0 : Fin S8192x16x256.rank) ∈ dot_S64x16x256_S8192x16x256_S64x16x8192x16_2_2_01_01_n_n.rhsBatch by decide),
    dif_pos (show (0 : Fin S8192x16x256.rank) ∈ dot_S64x16x256_S8192x16x256_S64x16x8192x16_2_2_01_01_n_n.rhsNonContracting by decide)]
  rfl
theorem rhs_step (i : S64x16x8192x16.Idx) (k : dot_S64x16x256_S8192x16x256_S64x16x8192x16_2_2_01_01_n_n.contr.Idx) : (dot_S64x16x256_S8192x16x256_S64x16x8192x16_2_2_01_01_n_n.rhsIdx i k 1).val = (i 3).val := by
  unfold DotDims.rhsIdx
  rw [dif_neg (show ¬(1 : Fin S8192x16x256.rank) ∈ dot_S64x16x256_S8192x16x256_S64x16x8192x16_2_2_01_01_n_n.rhsBatch by decide),
    dif_pos (show (1 : Fin S8192x16x256.rank) ∈ dot_S64x16x256_S8192x16x256_S64x16x8192x16_2_2_01_01_n_n.rhsNonContracting by decide)]
  rfl
theorem rhs_feature (i : S64x16x8192x16.Idx) (k : dot_S64x16x256_S8192x16x256_S64x16x8192x16_2_2_01_01_n_n.contr.Idx) :
    (dot_S64x16x256_S8192x16x256_S64x16x8192x16_2_2_01_01_n_n.rhsIdx i k 2).val = (k ⟨0, by decide⟩).val :=
  dot_S64x16x256_S8192x16x256_S64x16x8192x16_2_2_01_01_n_n.rhsIdx_val_of_single rfl i k

/-- Entry (c, s, q, t) of the contraction: the sum over the features of prototype row (c, s) times query row (q, t). -/
theorem contraction_entry (P : FVec Ideal S64x16x256 .f32) (Q : FVec Ideal S8192x16x256 .f32)
    (c : Fin 64) (s : Fin 16) (q : Fin 8192) (t : Fin 16) :
    Host.dotGeneral (F := Ideal) dot_S64x16x256_S8192x16x256_S64x16x8192x16_2_2_01_01_n_n none P Q (ix4 c s q t) = ∑ d : Fin 256, P (ix3 c s d) * Q (ix3 q t d) := by
  simp only [Host.dotGeneral]
  rw [Ideal.dotGeneral_apply, ← Equiv.sum_comp (contrEquiv1 dot_S64x16x256_S8192x16x256_S64x16x8192x16_2_2_01_01_n_n 256 rfl rfl).symm]
  refine Finset.sum_congr rfl fun k _ => ?_
  have hk := contrEquiv1_symm_val dot_S64x16x256_S8192x16x256_S64x16x8192x16_2_2_01_01_n_n 256 rfl rfl k
  have el : dot_S64x16x256_S8192x16x256_S64x16x8192x16_2_2_01_01_n_n.lhsIdx (ix4 c s q t) ((contrEquiv1 dot_S64x16x256_S8192x16x256_S64x16x8192x16_2_2_01_01_n_n 256 rfl rfl).symm k) = ix3 c s k :=
    funext fun a => Fin.ext (by
      match a with
      | ⟨0, _⟩ => exact lhs_class _ _
      | ⟨1, _⟩ => exact lhs_step _ _
      | ⟨2, _⟩ => exact (lhs_feature _ _).trans hk)
  have er : dot_S64x16x256_S8192x16x256_S64x16x8192x16_2_2_01_01_n_n.rhsIdx (ix4 c s q t) ((contrEquiv1 dot_S64x16x256_S8192x16x256_S64x16x8192x16_2_2_01_01_n_n 256 rfl rfl).symm k) = ix3 q t k :=
    funext fun a => Fin.ext (by
      match a with
      | ⟨0, _⟩ => exact rhs_query _ _
      | ⟨1, _⟩ => exact rhs_step _ _
      | ⟨2, _⟩ => exact (rhs_feature _ _).trans hk)
  rw [el, er]

/-- Entry (q, c, t, s) of the distance cube: one minus the inner product of prototype row (c, s) and query row (q, t). -/
theorem cube_apply (P : FVec Ideal S64x16x256 .f32) (Q : FVec Ideal S8192x16x256 .f32)
    (q : Fin 8192) (c : Fin 64) (t s : Fin 16) :
    cube P Q (ix4 q c t s) = oneW - ∑ d : Fin 256, P (ix3 c s d) * Q (ix3 q t d) := by
  unfold cube
  refine (subf_apply _ _ _).trans (congrArg₂ (· - ·) ?_ ?_)
  · exact broadcastInDim_scalar_apply _ _ _
  · refine (transpose_apply [2, 0, 3, 1] _ _ (ix4 q c t s) (ix4 c s q t) (fun b => match b with
      | ⟨0, _⟩ => rfl
      | ⟨1, _⟩ => rfl
      | ⟨2, _⟩ => rfl
      | ⟨3, _⟩ => rfl)).trans ?_
    exact contraction_entry P Q c s q t

/-- Entry (q, c) of the two sums of minima. -/
theorem twoSums_apply (D : FVec Ideal S8192x64x16x16 .f32) (q : Fin 8192) (c : Fin 64) :
    twoSums D (ix2 q c)
      = (∑ t : Fin 16, least fun s => D (ix4 q c t s)) + ∑ s : Fin 16, least fun t => D (ix4 q c t s) := by
  have h3 : S8192x64x16x16.Reduces [3] S8192x64x16 := by decide
  have h2 : S8192x64x16x16.Reduces [2] S8192x64x16 := by decide
  have hs : S8192x64x16.Reduces [2] S8192x64 := by decide
  have es : ∀ k : Fin 16, hs.lift (ix2 q c) k = ix3 q c k := fun k =>
    funext fun a => Fin.ext (by match a with | ⟨0, _⟩ => rfl | ⟨1, _⟩ => rfl | ⟨2, _⟩ => rfl)
  unfold twoSums
  refine (addf_apply _ _ _).trans (congrArg₂ (· + ·) ?_ ?_)
  · refine (hostReduceAdd_apply _ _ _ _ _).trans ?_
    refine (Ideal.hostReduceAdd_single reducesTo_S8192x64x16_S8192x64_d2 hs _ _ (ix2 q c)).trans ?_
    show Ideal.ofBits .f32 0x00000000#32 + _ = _
    rw [Ideal.ofBits_zero_f32, zero_add]
    refine Finset.sum_congr rfl fun t _ => ?_
    rw [es t]
    refine (Ideal.hostReduce_minimumf_single D _ reducesTo_S8192x64x16x16_S8192x64x16_d3 h3 h_S_ (ix3 q c t)).trans ?_
    unfold least
    refine Finset.fold_congr fun s _ => ?_
    exact congrArg D (funext fun a => Fin.ext (by
      match a with | ⟨0, _⟩ => rfl | ⟨1, _⟩ => rfl | ⟨2, _⟩ => rfl | ⟨3, _⟩ => rfl))
  · refine (hostReduceAdd_apply _ _ _ _ _).trans ?_
    refine (Ideal.hostReduceAdd_single reducesTo_S8192x64x16_S8192x64_d2 hs _ _ (ix2 q c)).trans ?_
    show Ideal.ofBits .f32 0x00000000#32 + _ = _
    rw [Ideal.ofBits_zero_f32, zero_add]
    refine Finset.sum_congr rfl fun s _ => ?_
    rw [es s]
    refine (Ideal.hostReduce_minimumf_single D _ reducesTo_S8192x64x16x16_S8192x64x16_d2 h2 h_S_ (ix3 q c s)).trans ?_
    unfold least
    refine Finset.fold_congr fun t _ => ?_
    exact congrArg D (funext fun a => Fin.ext (by
      match a with | ⟨0, _⟩ => rfl | ⟨1, _⟩ => rfl | ⟨2, _⟩ => rfl | ⟨3, _⟩ => rfl))

/-- The reference's result array is the matching distance of the query array and the scaled prototypes. -/
theorem reference_result (a0 : FVec Ideal S640x16x256 .f32) (a1 : FVec Ideal S8192x16x256 .f32) (a2 : IVec S640 32) :
    Hand.result a0 a1 a2 = Matching.result a1 (protos a0 a2) := by
  funext j
  obtain ⟨q, c, rfl⟩ : ∃ (q : Fin 8192) (c : Fin 64), j = ix2 q c := ⟨j 0, j 1, eq_ix2 j⟩
  unfold Hand.result
  rw [twoSums_apply]
  show _ = matching (fun t => unitRow fun k => a1 (ix3 q t k)) (fun s d => protos a0 a2 (ix3 c s d))
  unfold matching
  refine congrArg₂ (· + ·) (Finset.sum_congr rfl fun t _ => congrArg least (funext fun s => ?_))
    (Finset.sum_congr rfl fun s _ => congrArg least (funext fun t => ?_))
  all_goals
    refine (cube_apply _ _ q c t s).trans ?_
    unfold cosDist
    refine congrArg (oneW - ·) (Finset.sum_congr rfl fun d _ => ?_)
    rw [mul_comm, queries_apply]

end Cert.ReferenceIdeal.RefValue

end
-- ==== Proof.BlockLayout.lean ====
/-
  One grid point's block, read entry by entry: what each re-laying or reducing operation of the body is
  at an index named by its coordinates.

  A block holds 128 queries of 16 steps of 256 features. The body moves between five layouts of the same
  entries — [128,16,256] and [2048,256] (query and step merged into one row index 16·p + t), [2048,1024]
  and [128,16,1024] (the merged row split back), [128,16,1024] and [128,16,16,64] (the column index
  64·s + c split into prototype step s and class c) — and a shape cast keeps row-major position, so each
  cast read at coordinates is the operand at the coordinates with the same position. A sum of squares
  kept as a trailing unit axis [128,16] → [128,16,1] and broadcast along the features [128,16,1] →
  [128,16,256] is read at (p, t, ·) as the value at (p, t). A sum or a minimum along one axis is the sum
  or the fold of `min` over that axis's coordinates.
-/
import Idealize.ShloMosaic.PureOps.Ideal.Laws
import Idealize.ShloMosaic.Lib.ValueIdx
import Idealize.ShloMosaic.Lib.Pipeline.Value
import proofs.«109848_j29283087024824_2_alg».proof.Proof.LibMinReduceSingle

noncomputable section

namespace Cert.Matching.Block

open Idealize.ShloMosaic Idealize.ShloMosaic.ValueIdx

variable {α : Type}

/-- Query p, step t of a block as one merged row index. -/
abbrev qt (p : Fin 128) (t : Fin 16) : Fin 2048 := ⟨p.val * 16 + t.val, by omega⟩
/-- Prototype step s, class c as one merged column index (step-major). -/
abbrev sc (s : Fin 16) (c : Fin 64) : Fin 1024 := ⟨s.val * 64 + c.val, by omega⟩

/-! ## Shape casts -/

/-- [128,16] → [128,16,1]: the trailing unit axis adds nothing. -/
theorem cast_keepdims (v : (⟨2, ![128, 16]⟩ : Shape).Idx → α) (h : (⟨2, ![128, 16]⟩ : Shape).ShapeCasts ⟨3, ![128, 16, 1]⟩)
    (p : Fin 128) (t : Fin 16) (z : Fin 1) : shapeCast ⟨3, ![128, 16, 1]⟩ v h (ix3 p t z) = v (ix2 p t) := by
  refine shapeCast_apply v h _ _ ?_
  rw [Shape.rowMajor_val_two, Shape.rowMajor_val_three]
  show p.val * 16 + t.val = (p.val * 16 + t.val) * 1 + z.val
  omega

/-- [128,16,256] → [2048,256]: row 16·p + t, column d is entry (p, t, d). -/
theorem cast_merge_rows (v : (⟨3, ![128, 16, 256]⟩ : Shape).Idx → α) (h : (⟨3, ![128, 16, 256]⟩ : Shape).ShapeCasts ⟨2, ![2048, 256]⟩)
    (p : Fin 128) (t : Fin 16) (d : Fin 256) : shapeCast ⟨2, ![2048, 256]⟩ v h (ix2 (qt p t) d) = v (ix3 p t d) := by
  refine shapeCast_apply v h _ _ ?_
  rw [Shape.rowMajor_val_two, Shape.rowMajor_val_three]
  show (p.val * 16 + t.val) * 256 + d.val = (p.val * 16 + t.val) * 256 + d.val
  rfl

/-- [2048,1024] → [128,16,1024]: entry (p, t, n) is row 16·p + t, column n. -/
theorem cast_split_rows (v : (⟨2, ![2048, 1024]⟩ : Shape).Idx → α) (h : (⟨2, ![2048, 1024]⟩ : Shape).ShapeCasts ⟨3, ![128, 16, 1024]⟩)
    (p : Fin 128) (t : Fin 16) (n : Fin 1024) : shapeCast ⟨3, ![128, 16, 1024]⟩ v h (ix3 p t n) = v (ix2 (qt p t) n) := by
  refine shapeCast_apply v h _ _ ?_
  rw [Shape.rowMajor_val_two, Shape.rowMajor_val_three]
  show (p.val * 16 + t.val) * 1024 + n.val = (p.val * 16 + t.val) * 1024 + n.val
  rfl

/-- [128,16,1024] → [128,16,16,64]: entry (p, t, s, c) is entry (p, t, 64·s + c). -/
theorem cast_split_cols (v : (⟨3, ![128, 16, 1024]⟩ : Shape).Idx → α)
    (h : (⟨3, ![128, 16, 1024]⟩ : Shape).ShapeCasts ⟨4, ![128, 16, 16, 64]⟩)
    (p : Fin 128) (t s : Fin 16) (c : Fin 64) : shapeCast ⟨4, ![128, 16, 16, 64]⟩ v h (ix4 p t s c) = v (ix3 p t (sc s c)) := by
  refine shapeCast_apply v h _ _ ?_
  rw [Shape.rowMajor_val_three, Shape.rowMajor_val_four]
  show (p.val * 16 + t.val) * 1024 + (s.val * 64 + c.val) = ((p.val * 16 + t.val) * 16 + s.val) * 64 + c.val
  omega

/-! ## The broadcast along the features -/

/-- [128,16,1] → [128,16,256]: entry (p, t, d) is the value at (p, t). -/
theorem bcast_features (w : (⟨3, ![128, 16, 1]⟩ : Shape).Idx → α) (h : (⟨3, ![128, 16, 1]⟩ : Shape).Broadcasts ⟨3, ![128, 16, 256]⟩)
    (p : Fin 128) (t : Fin 16) (d : Fin 256) : broadcastTo ⟨3, ![128, 16, 256]⟩ w h (ix3 p t d) = w (ix3 p t 0) := by
  refine broadcastTo_apply w h _ _ fun a => ?_
  match a with
  | ⟨0, _⟩ => show p.val = if (128 : Nat) = 1 then 0 else p.val; rw [if_neg (by decide)]
  | ⟨1, _⟩ => show t.val = if (16 : Nat) = 1 then 0 else t.val; rw [if_neg (by decide)]
  | ⟨2, _⟩ => show 0 = if (1 : Nat) = 1 then 0 else d.val; rw [if_pos rfl]

/-! ## Sums and minima along one axis -/

/-- The sum along the features of a [128,16,256] block, at (p, t). -/
theorem sum_features (v : FVec Ideal ⟨3, ![128, 16, 256]⟩ .f32) (acc : BitVec 32)
    (h : (⟨3, ![128, 16, 256]⟩ : Shape).Reduces [2] ⟨2, ![128, 16]⟩) (hφ : FKind.Formats .f32) (hacc : acc = FKind.add.neutral .f32 hφ)
    (p : Fin 128) (t : Fin 16) :
    multiReduction .add [2] ⟨2, ![128, 16]⟩ v acc h hφ hacc (ix2 p t) = ∑ k : Fin 256, v (ix3 p t k) := by
  refine (Ideal.multiReduction_add_single v acc h hφ hacc (ix2 p t)).trans (Finset.sum_congr rfl fun k _ => ?_)
  exact congrArg v (funext fun a => Fin.ext (by match a with | ⟨0, _⟩ => rfl | ⟨1, _⟩ => rfl | ⟨2, _⟩ => rfl))

/-- The sum along the middle axis of a [128,16,64] array, at (p, c). -/
theorem sum_steps (v : FVec Ideal ⟨3, ![128, 16, 64]⟩ .f32) (acc : BitVec 32)
    (h : (⟨3, ![128, 16, 64]⟩ : Shape).Reduces [1] ⟨2, ![128, 64]⟩) (hφ : FKind.Formats .f32) (hacc : acc = FKind.add.neutral .f32 hφ)
    (p : Fin 128) (c : Fin 64) :
    multiReduction .add [1] ⟨2, ![128, 64]⟩ v acc h hφ hacc (ix2 p c) = ∑ k : Fin 16, v (ix3 p k c) := by
  refine (Ideal.multiReduction_add_single v acc h hφ hacc (ix2 p c)).trans (Finset.sum_congr rfl fun k _ => ?_)
  exact congrArg v (funext fun a => Fin.ext (by match a with | ⟨0, _⟩ => rfl | ⟨1, _⟩ => rfl | ⟨2, _⟩ => rfl))

/-- The minimum along the prototype steps (axis 2) of a [128,16,16,64] array, at (p, t, c). -/
theorem min_over_s (v : FVec Ideal ⟨4, ![128, 16, 16, 64]⟩ .f32) (acc : BitVec 32)
    (h : (⟨4, ![128, 16, 16, 64]⟩ : Shape).Reduces [2] ⟨3, ![128, 16, 64]⟩) (hφ : FKind.Formats .f32)
    (hacc : acc = FKind.minimumf.neutral .f32 hφ) (p : Fin 128) (t : Fin 16) (c : Fin 64) :
    multiReduction .minimumf [2] ⟨3, ![128, 16, 64]⟩ v acc h hφ hacc (ix3 p t c)
      = (Finset.univ : Finset (Fin 16)).fold (FloatOps.minimumf (F := Ideal) (φ := .f32)) (Ideal.ofBits .f32 acc)
          (fun s => v (ix4 p t s c)) := by
  refine (Ideal.multiReduction_minimumf_single v acc h hφ hacc (ix3 p t c)).trans (Finset.fold_congr fun s _ => ?_)
  exact congrArg v (funext fun a => Fin.ext (by match a with | ⟨0, _⟩ => rfl | ⟨1, _⟩ => rfl | ⟨2, _⟩ => rfl | ⟨3, _⟩ => rfl))

/-- The minimum along the query steps (axis 1) of a [128,16,16,64] array, at (p, s, c). -/
theorem min_over_t (v : FVec Ideal ⟨4, ![128, 16, 16, 64]⟩ .f32) (acc : BitVec 32)
    (h : (⟨4, ![128, 16, 16, 64]⟩ : Shape).Reduces [1] ⟨3, ![128, 16, 64]⟩) (hφ : FKind.Formats .f32)
    (hacc : acc = FKind.minimumf.neutral .f32 hφ) (p : Fin 128) (s : Fin 16) (c : Fin 64) :
    multiReduction .minimumf [1] ⟨3, ![128, 16, 64]⟩ v acc h hφ hacc (ix3 p s c)
      = (Finset.univ : Finset (Fin 16)).fold (FloatOps.minimumf (F := Ideal) (φ := .f32)) (Ideal.ofBits .f32 acc)
          (fun t => v (ix4 p t s c)) := by
  refine (Ideal.multiReduction_minimumf_single v acc h hφ hacc (ix3 p s c)).trans (Finset.fold_congr fun t _ => ?_)
  exact congrArg v (funext fun a => Fin.ext (by match a with | ⟨0, _⟩ => rfl | ⟨1, _⟩ => rfl | ⟨2, _⟩ => rfl | ⟨3, _⟩ => rfl))

end Cert.Matching.Block

end
-- ==== Proof.BodyValue.lean ====
/-
  What one grid point's body computes, entry by entry: from a block of 128 queries and the table of the
  1024 prototype rows, entry (p, c) of what it stores is the matching distance of query p of the block,
  its rows scaled to unit length, and the sixteen rows 64·s + c of the table (the table is laid out
  step-major: row 64·s + c is step s of class c).

  The body is three stages. `scaledRows`: each row (p, t) of the block over the larger of its Euclidean
  norm and the floor. `distances`: the scaled rows, as a [2048,256] matrix with row index 16·p + t, times
  the transposed table, subtracted from one and re-laid as [128,16,16,64] — entry (p, t, s, c) is one minus
  the inner product of scaled row (p, t) and table row 64·s + c. `twoSums`: the minimum along s summed over
  t, plus the minimum along t summed over s. The stored payload is, definitionally, their composition
  (`payload_eq`); each stage is then read at an index by the block-layout lemmas, and the narrowing to
  sixteen bits before the product is the identity on the extended reals.
-/
import proofs.«109848_j29283087024824_2_alg».proof.Proof.Gen.KernelIdeal.Skeleton
import proofs.«109848_j29283087024824_2_alg».proof.Proof.BlockLayout
import proofs.«109848_j29283087024824_2_alg».proof.Proof.MatchingDistance

noncomputable section

namespace Cert.KernelIdeal.BodyValue

open Cert.KernelIdeal Cert.KernelIdeal.Gen
open Idealize.ShloMosaic Idealize.ShloMosaic.ValueIdx Cert.Matching Cert.Matching.Block

/-! ## The three stages -/

/-- The block's rows scaled to unit length. -/
def scaledRows (x : FVec Ideal S128x16x256 .f32) : FVec Ideal S128x16x256 .f32 :=
  divf x (broadcastTo S128x16x256
    (maximumf
      (sqrt (shapeCast S128x16x1
        (multiReduction .add [2] S128x16 (mulf x x) 0x00000000#32 reduces_S128x16x256_S128x16 (.inl rfl) rfl)
        shapeCasts_S128x16_S128x16x1))
      (broadcast S128x16x1 (Scalar.ofBits .f32 0x2B8CBCCC#32)))
    broadcasts_S128x16x1_S128x16x256)

/-- One minus the inner products of the scaled rows and the table's rows, as a [128,16,16,64] array. -/
def distances (y : FVec Ideal S128x16x256 .f32) (tbl : FVec Ideal S1024x256 .bf16) : FVec Ideal S128x16x16x64 .f32 :=
  shapeCast S128x16x16x64
    (subf (broadcast S128x16x1024 (Scalar.ofBits .f32 0x3F800000#32))
      (shapeCast S128x16x1024
        (matmul dot_S2048x256_S1024x256_S2048x1024_1_1_0_0_n_n none
          (shapeCast S2048x256 (truncf .bf16 y bitsLt_bf16_f32) shapeCasts_S128x16x256_S2048x256)
          (shapeCast S1024x256 tbl shapeCasts_S1024x256_S1024x256)
          (constant S2048x1024 .f32 0x00000000#32))
        shapeCasts_S2048x1024_S128x16x1024))
    shapeCasts_S128x16x1024_S128x16x16x64

/-- The minimum along the prototype steps summed over the query steps, plus the minimum along the query
    steps summed over the prototype steps. -/
def twoSums (D : FVec Ideal S128x16x16x64 .f32) : FVec Ideal S128x64 .f32 :=
  addf
    (multiReduction .add [1] S128x64
      (multiReduction .minimumf [2] S128x16x64 D 0x7F800000#32 reduces_S128x16x16x64_S128x16x64 (.inl rfl) rfl)
      0x00000000#32 reduces_S128x16x64_S128x64 (.inl rfl) rfl)
    (multiReduction .add [1] S128x64
      (multiReduction .minimumf [1] S128x16x64 D 0x7F800000#32 reduces_S128x16x16x64_S128x16x64_2 (.inl rfl) rfl)
      0x00000000#32 reduces_S128x16x64_S128x64 (.inl rfl) rfl)

/-- The stored payload is the composition of the three stages. -/
theorem payload_eq (x : FVec Ideal S128x16x256 .f32) (tbl : FVec Ideal S1024x256 .bf16) :
    k0_pay1 (F := Ideal) x tbl = twoSums (distances (scaledRows x) tbl) := rfl

/-! ## Each stage at an index -/

/-- Entry (p, t, d) of the scaled rows is entry d of row (p, t) scaled to unit length. -/
theorem scaledRows_apply (x : FVec Ideal S128x16x256 .f32) (p : Fin 128) (t : Fin 16) (d : Fin 256) :
    scaledRows x (ix3 p t d) = unitRow (fun k => x (ix3 p t k)) d := by
  unfold scaledRows unitRow
  refine (divf_apply _ _ _).trans (congrArg (Ideal.div (x (ix3 p t d))) ?_)
  refine (bcast_features _ _ p t d).trans ?_
  refine (maximumf_apply _ _ _).trans (congrArg₂ max (congrArg Ideal.sqrt ?_) rfl)
  refine (cast_keepdims _ _ p t 0).trans ?_
  exact sum_features _ _ _ _ _ p t

/-- The product's left operand index at output index i and contraction index q: row i₀, feature q. -/
theorem lhs_row (i : S2048x1024.Idx) (q : dot_S2048x256_S1024x256_S2048x1024_1_1_0_0_n_n.contr.Idx) : (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide),
    dif_pos (show (0 : Fin S2048x256.rank) ∈ dot_S2048x256_S1024x256_S2048x1024_1_1_0_0_n_n.lhsNonContracting by decide)]
  rfl
theorem lhs_feature (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
/-- The right operand index: row i₁, feature q. -/
theorem rhs_row (i : S2048x1024.Idx) (q : dot_S2048x256_S1024x256_S2048x1024_1_1_0_0_n_n.contr.Idx) : (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide),
    dif_pos (show (0 : Fin S1024x256.rank) ∈ dot_S2048x256_S1024x256_S2048x1024_1_1_0_0_n_n.rhsNonContracting by decide)]
  rfl
theorem rhs_feature (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- The product of the merged rows and the table, both contracted along the features: entry (r, n) is the
    sum over the features of row r of the left times row n of the right. -/
theorem product_entry (L : FVec Ideal S2048x256 .bf16) (R : FVec Ideal S1024x256 .bf16) (r : Fin 2048) (n : Fin 1024) :
    matmul dot_S2048x256_S1024x256_S2048x1024_1_1_0_0_n_n none L R (constant (F := Ideal) S2048x1024 .f32 0x00000000#32) (ix2 r n)
      = ∑ d : Fin 256, L (ix2 r d) * R (ix2 n d) := by
  simp only [matmul]
  rw [Ideal.matmul_constant_zero_apply, ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 r n) ((contrEquiv1 dot_S2048x256_S1024x256_S2048x1024_1_1_0_0_n_n 256 rfl rfl).symm k) = ix2 r k :=
    funext fun a => Fin.ext (by
      match a with
      | ⟨0, _⟩ => exact lhs_row _ _
      | ⟨1, _⟩ => exact (lhs_feature _ _).trans hk)
  have er : dot_S2048x256_S1024x256_S2048x1024_1_1_0_0_n_n.rhsIdx (ix2 r n) ((contrEquiv1 dot_S2048x256_S1024x256_S2048x1024_1_1_0_0_n_n 256 rfl rfl).symm k) = ix2 n k :=
    funext fun a => Fin.ext (by
      match a with
      | ⟨0, _⟩ => exact rhs_row _ _
      | ⟨1, _⟩ => exact (rhs_feature _ _).trans hk)
  rw [el, er]

/-- Entry (p, t, s, c) of the distance array: one minus the inner product of row (p, t) of `y` and row
    64·s + c of the table. -/
theorem distances_apply (y : FVec Ideal S128x16x256 .f32) (tbl : FVec Ideal S1024x256 .bf16)
    (p : Fin 128) (t s : Fin 16) (c : Fin 64) :
    distances y tbl (ix4 p t s c) = oneW - ∑ d : Fin 256, y (ix3 p t d) * tbl (ix2 (sc s c) d) := by
  unfold distances
  refine (cast_split_cols _ _ p t s c).trans ?_
  refine (subf_apply _ _ _).trans (congrArg (oneW - ·) ?_)
  refine (cast_split_rows _ _ p t (sc s c)).trans ?_
  refine (product_entry _ _ (qt p t) (sc s c)).trans (Finset.sum_congr rfl fun d _ => ?_)
  refine congrArg₂ (· * ·) ?_ ?_
  · exact cast_merge_rows _ _ p t d
  · exact congrFun (shapeCast_self tbl shapeCasts_S1024x256_S1024x256) (ix2 (sc s c) d)

/-- Entry (p, c) of the two sums of minima. -/
theorem twoSums_apply (D : FVec Ideal S128x16x16x64 .f32) (p : Fin 128) (c : Fin 64) :
    twoSums D (ix2 p c)
      = (∑ t : Fin 16, least fun s => D (ix4 p t s c)) + ∑ s : Fin 16, least fun t => D (ix4 p t s c) := by
  unfold twoSums
  refine (addf_apply _ _ _).trans (congrArg₂ (· + ·) ?_ ?_)
  · refine (sum_steps _ _ _ _ _ p c).trans (Finset.sum_congr rfl fun t _ => ?_)
    exact min_over_s D _ _ _ _ p t c
  · refine (sum_steps _ _ _ _ _ p c).trans (Finset.sum_congr rfl fun s _ => ?_)
    exact min_over_t D _ _ _ _ p s c

/-! ## The body's entry -/

/-- Entry (p, c) of what the body stores: the matching distance of query p of the block, its rows scaled to
    unit length, and the table's rows 64·s + c, s = 0 … 15. -/
theorem body_entry (x : FVec Ideal S128x16x256 .f32) (tbl : FVec Ideal S1024x256 .bf16) (p : Fin 128) (c : Fin 64) :
    k0_pay1 (F := Ideal) x tbl (ix2 p c)
      = matching (fun t => unitRow fun k => x (ix3 p t k)) (fun s d => tbl (ix2 (sc s c) d)) := by
  rw [payload_eq, twoSums_apply]
  unfold matching
  refine congrArg₂ (· + ·) (Finset.sum_congr rfl fun t _ => congrArg least (funext fun s => ?_))
    (Finset.sum_congr rfl fun s _ => congrArg least (funext fun t => ?_))
  all_goals
    refine (distances_apply _ _ p t s c).trans ?_
    unfold cosDist
    refine congrArg (oneW - ·) (Finset.sum_congr rfl fun d _ => ?_)
    rw [scaledRows_apply]

end Cert.KernelIdeal.BodyValue

end
-- ==== Proof.PrototypeTable.lean ====
/-
  The table the kernel's body multiplies by: the scaled class prototypes, re-laid step-major.

  Before the grid runs, the kernel's program computes on the host the scaled prototypes (`protos`): the
  per-class sums of the support sequences over the larger of the class's count and one — the class means —,
  then every row of a mean over the larger of its Euclidean norm and the floor. It then exchanges the class
  and step axes, [64,16,256] → [16,64,256], merges them into one row index, → [1024,256], and narrows to
  sixteen bits, which on the extended reals changes nothing (`table_eq`). So row 64·s + c of the table is step
  s of the scaled prototype of class c (`table_entry`). The scaled prototypes themselves are kept whole:
  nothing here opens the sums over the support set.
-/
import proofs.«109848_j29283087024824_2_alg».proof.Proof.Gen.KernelIdeal.Frame
import proofs.«109848_j29283087024824_2_alg».proof.Proof.BlockLayout
import Idealize.ShloMosaic.Lib.StableHlo.Run
import Idealize.ShloMosaic.Lib.Pipeline.Value

noncomputable section

namespace Cert.KernelIdeal.Table

open Cert.KernelIdeal Cert.KernelIdeal.Gen
open Idealize.ShloMosaic Idealize.ShloMosaic.TcCoe Idealize.SL.Sem Idealize.ShloMosaic.StableHlo
open Idealize.ShloMosaic.ValueIdx Cert.Matching.Block

/-- The class means: per class the sum of its support sequences over the larger of its count and one. -/
def means (a0 : FVec Ideal S640x16x256 .f32) (a2 : IVec S640 32) : FVec Ideal S64x16x256 .f32 :=
  Host.divf (F := Ideal)
    (Host.scatterAdd (F := Ideal) scatter_S64x16x256_S640x1_S640x16x256_12_0_0_1
      (broadcastInDim S64x16x256 ![] bcast_S_S64x16x256 (constant (F := Ideal) S_ .f32 0x00000000#32))
      (broadcastInDim S640x1 ![0] bcast_S640_S640x1_0 a2) a0)
    (broadcastInDim S64x16x256 ![0, 1, 2] bcast_S64x1x1_S64x16x256_0_1_2
      (broadcastInDim S64x1x1 ![0] bcast_S64_S64x1x1_0
        (maximumf
          (Host.scatterAdd (F := Ideal) scatter_S64_S640x1_S640_n_0_0_1
            (broadcastInDim S64 ![] bcast_S_S64 (constant (F := Ideal) S_ .f32 0x00000000#32))
            (broadcastInDim S640x1 ![0] bcast_S640_S640x1_0 a2)
            (broadcastInDim S640 ![] bcast_S_S640 (constant (F := Ideal) S_ .f32 0x3F800000#32)))
          (broadcastInDim S64 ![] bcast_S_S64 (constant (F := Ideal) S_ .f32 0x3F800000#32)))))

/-- The scaled prototypes: every row of a class mean over the larger of its Euclidean norm and the floor. -/
def protos (a0 : FVec Ideal S640x16x256 .f32) (a2 : IVec S640 32) : FVec Ideal S64x16x256 .f32 :=
  Host.divf (F := Ideal) (means a0 a2)
    (broadcastInDim S64x16x256 ![0, 1, 2] bcast_S64x16x1_S64x16x256_0_1_2
      (maximumf
        (Host.sqrt (F := Ideal)
          (broadcastInDim S64x16x1 ![0, 1] bcast_S64x16_S64x16x1_0_1
            (Host.reduceAdd (F := Ideal) (mulf (means a0 a2) (means a0 a2)) (constant (F := Ideal) S_ .f32 0x00000000#32)
              reducesTo_S64x16x256_S64x16_d2 h_S_)))
        (broadcastInDim S64x16x1 ![] bcast_S_S64x16x1 (constant (F := Ideal) S_ .f32 0x2B8CBCCC#32))))

variable (m : (ℓ : Loc nD τ sig) → Buf (Elt Ideal) ℓ)

/-- The scaled prototypes of the launch's support array and labels. -/
abbrev launchProtos (c : Dev nD) : FVec Ideal S64x16x256 .f32 :=
  protos (m ((c.tc : Thread nD τ).loc main_arg0)) (m ((c.tc : Thread nD τ).loc main_arg2))

/-- The table as the grid finds it: the scaled prototypes with class and step exchanged, the two merged into
    one row index, narrowed to sixteen bits. -/
theorem table_eq (c : Dev nD) :
    (V m c main_v19 : FVec Ideal S1024x256 .bf16)
      = truncf .bf16
          (shapeCast S1024x256
            (transpose S16x64x256 [1, 0, 2] (launchProtos m c) transposes_S64x16x256_S16x64x256_1_0_2)
            shapeCasts_S16x64x256_S1024x256)
          bitsLt_bf16_f32 := by
  dsimp only [V]
  simp only [hostOps0, hostOps0_1, hostOps0_2, List.flatten_cons, List.flatten_nil, List.append_nil, List.cons_append,
    List.nil_append]
  after_results_simp
  rfl

/-- Row 64·s + c of the table is step s of the scaled prototype of class c. -/
theorem table_entry (c : Dev nD) (s : Fin 16) (cls : Fin 64) (d : Fin 256) :
    (V m c main_v19 : FVec Ideal S1024x256 .bf16) (ix2 (sc s cls) d) = launchProtos m c (ix3 cls s d) := by
  rw [table_eq]
  show shapeCast S1024x256 (transpose S16x64x256 [1, 0, 2] (launchProtos m c) transposes_S64x16x256_S16x64x256_1_0_2)
      shapeCasts_S16x64x256_S1024x256 (ix2 (sc s cls) d) = _
  refine (shapeCast_apply _ _ _ (ix3 s cls d) ?_).trans ?_
  · rw [Shape.rowMajor_val_two, Shape.rowMajor_val_three]
    show (s.val * 64 + cls.val) * 256 + d.val = (s.val * 64 + cls.val) * 256 + d.val
    rfl
  · exact transpose_apply [1, 0, 2] _ _ (ix3 s cls d) (ix3 cls s d) (fun b => match b with
      | ⟨0, _⟩ => rfl
      | ⟨1, _⟩ => rfl
      | ⟨2, _⟩ => rfl)

end Cert.KernelIdeal.Table

end
-- ==== Proof.ResultArray.lean ====
/-
  From the grid's blocks to the whole result array: after the run the kernel's result holds the matching
  distance of every query and every class.

  The grid has 64 points. Point t reads queries 128·t … 128·t + 127 (its block of the query array: the
  other two block coordinates are 0, so row (p, k) of the block is row (128·t + p, k) of the array) and the
  whole prototype table (the table's block index is (0, 0) at every point), and writes back rows
  128·t … 128·t + 127 of the result, all 64 classes. By the body's entry (`BodyValue.body_entry`) and the
  table's rows (`Table.table_entry`), what point t writes at (p, c) is the matching distance of query
  128·t + p and class c — the value of `Matching.result` at the array index under the block
  (`stored_entry`, `written_back`). Row r of the result lies in the block of point r / 128, so the blocks
  cover the array (`covered`) and the array ends holding `Matching.result` (`result_array`, `run`).
-/
import proofs.«109848_j29283087024824_2_alg».proof.Proof.Gen.KernelIdeal.Value
import proofs.«109848_j29283087024824_2_alg».proof.Proof.BodyValue
import proofs.«109848_j29283087024824_2_alg».proof.Proof.PrototypeTable

noncomputable section

namespace Cert.KernelIdeal.ResultValue

open Cert.KernelIdeal Cert.KernelIdeal.Gen
open Idealize.ShloMosaic Idealize.ShloMosaic.TcCoe Idealize.SL.Sem
open Idealize.ShloMosaic.Pipeline (Dat)
open Idealize.ShloMosaic.ValueIdx Cert.Matching Cert.Matching.Block

variable (m : (ℓ : Loc nD τ sig) → Buf (Elt Ideal) ℓ) (ρ : Dev nD → PrngReg)

/-- What the result array ends holding: the matching distances of the launch's queries and scaled prototypes. -/
abbrev kernelResult (c : Dev nD) : FVec Ideal S8192x64 .f32 :=
  Cert.Matching.result (m ((c.tc : Thread nD τ).loc main_arg1)) (Table.launchProtos m c)

theorem zero2 : (![0, 0] : Fin 2 → Nat) = fun _ => 0 := funext fun a => by fin_cases a <;> rfl
theorem zero3 : (![0, 0, 0] : Fin 3 → Nat) = fun _ => 0 := funext fun a => by fin_cases a <;> rfl

/-- The three windows' block indices at point t: the queries and the result move with the point along their
    first axis, the table stays. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row (p, k) of point t's query block is row (128·t + p, k) of the query array. -/
theorem query_block_entry (c : Dev nD) (t : Fin cfg0.N) (p : Fin 128) (k : Fin 16) (d : Fin 256) (g : Fin 8192)
    (hg : g.val = t.val * 128 + p.val) :
    (iblk m c 0 t : FVec Ideal S128x16x256 .f32) (ix3 p k d)
      = (m ((c.tc : Thread nD τ).loc main_arg1) : FVec Ideal S8192x16x256 .f32) (ix3 g k d) := by
  obtain ⟨e0, e1, e2, -⟩ := block_indices t
  unfold iblk
  rw [View.read_apply]
  show V m c main_arg1 _ = _
  refine (congrFun (V_main_arg1 m c) _).trans (congrArg (m ((c.tc : Thread nD τ).loc main_arg1)) ?_)
  funext a
  apply Fin.ext
  match a with
  | ⟨0, _⟩ => show win0_0.index t (0 : Fin 3) * 128 + 1 * p.val = g.val; omega
  | ⟨1, _⟩ => show win0_0.index t (1 : Fin 3) * 16 + 1 * k.val = k.val; omega
  | ⟨2, _⟩ => show win0_0.index t (2 : Fin 3) * 256 + 1 * d.val = d.val; omega

/-- Point t's table block is the whole table. -/
theorem table_block_entry (c : Dev nD) (t : Fin cfg0.N) (r : Fin 1024) (d : Fin 256) :
    (iblk m c 1 t : FVec Ideal S1024x256 .bf16) (ix2 r d) = (V m c main_v19 : FVec Ideal S1024x256 .bf16) (ix2 r d) := by
  obtain ⟨-, -, -, e3, e4, -⟩ := block_indices t
  unfold iblk
  rw [View.read_apply]
  show V m c main_v19 _ = V m c main_v19 _
  refine congrArg (V m c main_v19) ?_
  funext a
  apply Fin.ext
  match a with
  | ⟨0, _⟩ => show win0_1.index t (0 : Fin 2) * 1024 + 1 * r.val = r.val; omega
  | ⟨1, _⟩ => show win0_1.index t (1 : Fin 2) * 256 + 1 * d.val = d.val; omega

/-- What the body stores at point t, at block index y, is the result's value at the array index i under it
    (row 128·t + y₀, class y₁). -/
theorem stored_entry (c : Dev nD) (t : Fin cfg0.N) (y : S128x64.Idx) (i : S8192x64.Idx)
    (h0 : (i 0).val = t.val * 128 + (y 0).val) (h1 : (i 1).val = (y 1).val) :
    k0_pay1 (F := Ideal) (iblk m c 0 t) (iblk m c 1 t) y = kernelResult m c i := by
  obtain ⟨p, cc, rfl⟩ : ∃ (p : Fin 128) (cc : Fin 64), y = ix2 p cc := ⟨y 0, y 1, eq_ix2 y⟩
  obtain ⟨g, cg, rfl⟩ : ∃ (g : Fin 8192) (cg : Fin 64), i = ix2 g cg := ⟨i 0, i 1, eq_ix2 i⟩
  obtain rfl : cg = cc := Fin.ext h1
  refine (BodyValue.body_entry _ _ p cg).trans ?_
  show matching _ _ = matching _ _
  refine congrArg₂ matching (funext fun k => congrArg unitRow (funext fun k' => ?_)) (funext fun s => funext fun d => ?_)
  · exact query_block_entry m c t p k k' g h0
  · exact (table_block_entry m c t (sc s cg) d).trans (Table.table_entry m c s cg d)

/-- What point t writes back is block t of the result. -/
theorem written_back (c : Dev nD) (t : Fin cfg0.N) :
    (dats m 0 c).flushed 2 t = ((cfg0.win 2).blk t).view.read (Elt Ideal) (kernelResult m c) := by
  obtain ⟨-, -, -, -, -, e5, e6⟩ := block_indices t
  rw [Value.flushed2]
  unfold out0_2
  rw [View.canon_unit_zero zero2]
  simp only [View.ld_unit_zero (S := S128x16x256) zero3, View.ld_unit_zero (S := S1024x256) zero2]
  funext j
  show k0_pay1 (F := Ideal) (iblk m c 0 t) (iblk m c 1 t) j = kernelResult m c (((cfg0.win 2).blk t).view.emb j)
  refine stored_entry m c t j _ ?_ ?_
  · show win0_2.index t (0 : Fin 2) * 128 + 1 * (j 0).val = t.val * 128 + (j 0).val; omega
  · show win0_2.index t (1 : Fin 2) * 64 + 1 * (j 1).val = (j 1).val; omega

/-- An index of the result is in point t's block iff each coordinate is in the block's range on its axis. -/
theorem mem_block (t : Fin cfg0.N) (i : S8192x64.Idx) :
    i ∈ ((cfg0.win 2).blk t).view.set ↔ ∀ a : Fin 2, win0_2.index t a * S128x64.size a ≤ (i a).val
      ∧ (i a).val < win0_2.index t a * S128x64.size a + S128x64.size a := by
  show i ∈ ((View.whole main_v20).slice (win0_2.rect t)).set ↔ _
  rw [View.set_slice_whole, Rect.mem_set_unit]
  exact Iff.rfl

/-- Every index of the result is in the block of the point its row falls in: row r in point r / 128. -/
theorem covered (i : S8192x64.Idx) :
    ∃ t : Fin cfg0.N, (cfg0.win 2).flush t = true ∧ i ∈ ((cfg0.win 2).blk t).view.set := by
  have hN : cfg0.N = 64 := N_0
  have hi0 : (i 0).val < 8192 := (i 0).isLt
  have hi1 : (i 1).val < 64 := (i 1).isLt
  obtain ⟨t, ht⟩ : ∃ t : Fin cfg0.N, t.val = (i 0).val / 128 := ⟨⟨(i 0).val / 128, by rw [hN]; omega⟩, rfl⟩
  obtain ⟨-, -, -, -, -, e5, e6⟩ := block_indices t
  refine ⟨t, flush0_2 t, ?_⟩
  rw [mem_block]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 64 ≤ (i 1).val ∧ (i 1).val < win0_2.index t (1 : Fin 2) * 64 + 64
    omega

/-- So the result array ends holding the matching distances. -/
theorem result_array (c : Dev nD) : (dats m 0 c).arrAt 2 cfg0.N = kernelResult m c :=
  (dats m 0 c).arrAt_eq_of_cover 2 (kernelResult m c) (fun t _ => written_back m c t) covered

/-- The kernel's run, read: the result array at the matching distances, the arguments unchanged. -/
theorem run : θ_run defs (onTc (τ := τ) (main (F := Ideal))) ⟨m, fun _ => 0, ρ⟩ fun r => ∀ c : Dev nD,
      r.2.mem ((c : Thread nD τ).loc main_v20) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (Value.run_blocks m ρ)

end Cert.KernelIdeal.ResultValue

end
-- ==== Proof.lean ====
/-
  The kernel and its reference compute one function: the bidirectional matching distance between 8192
  query sequences and 64 class prototypes.

  Both programs first form the class prototypes (the per-class means of the support sequences) and scale
  every row, of prototypes and of queries, to unit length — divided by the larger of its Euclidean norm and
  1e-12. The reference then forms the whole cube of cosine distances 1 − ⟨q̂(q,t), p̂(c,s)⟩ with one
  contraction over the 256 features, takes minima along s and along t, sums each over the remaining step
  axis and adds. The kernel never forms the cube: per block of 128 queries it multiplies the scaled query
  rows, as a 2048 × 256 matrix, by the prototypes laid out as a 1024 × 256 table with row 64·s + c, and does
  the same minima and sums on the block. On the extended reals the two are equal entry by entry
  (`Matching.result`, Proof/MatchingDistance.lean): the only differences are the order of the two factors
  in each product, which commute, the layout of the intermediate arrays, and the order in which sums and
  minima visit their terms, which for a finite sum and for `min` does not matter. The narrowing of the
  matrix product's operands to sixteen bits is the identity on the extended reals. No finiteness of the
  inputs is used.

  The frames of the two kernel programs are the generated ones; the reference, a straight line of fifty
  host operations, is run in Proof/ReferenceRun.lean; the idealization rewrote nothing, so `preserves` is
  trivially true. The modules: Proof/MatchingDistance.lean (the function), Proof/ReferenceRun.lean and
  Proof/ReferenceValue.lean (the reference's run, and that its result is the function),
  Proof/BlockLayout.lean and Proof/BodyValue.lean (one block of the kernel is the function),
  Proof/PrototypeTable.lean (the kernel's table is the scaled prototypes re-laid), Proof/ResultArray.lean
  (the blocks cover the result), Proof/LibMinReduceSingle.lean (a minimum along one axis as a fold of
  `min`).
-/
import proofs.«109848_j29283087024824_2_alg».proof.Defs
import proofs.«109848_j29283087024824_2_alg».proof.Proof.Gen.Kernel
import proofs.«109848_j29283087024824_2_alg».proof.Proof.Gen.Kernel.Skeleton
import proofs.«109848_j29283087024824_2_alg».proof.Proof.Gen.Kernel.Launch
import proofs.«109848_j29283087024824_2_alg».proof.Proof.Gen.Kernel.Points
import proofs.«109848_j29283087024824_2_alg».proof.Proof.Gen.Kernel.Frame
import proofs.«109848_j29283087024824_2_alg».proof.Proof.Gen.KernelIdeal
import proofs.«109848_j29283087024824_2_alg».proof.Proof.Gen.KernelIdeal.Skeleton
import proofs.«109848_j29283087024824_2_alg».proof.Proof.Gen.KernelIdeal.Launch
import proofs.«109848_j29283087024824_2_alg».proof.Proof.Gen.KernelIdeal.Points
import proofs.«109848_j29283087024824_2_alg».proof.Proof.Gen.KernelIdeal.Frame
import proofs.«109848_j29283087024824_2_alg».proof.Proof.Gen.ReferenceIdeal
import proofs.«109848_j29283087024824_2_alg».proof.Proof.Gen.Pre_finite_inputs
import proofs.«109848_j29283087024824_2_alg».proof.Proof.Gen.KernelIdeal.Value
import proofs.«109848_j29283087024824_2_alg».proof.Proof.ReferenceValue
import proofs.«109848_j29283087024824_2_alg».proof.Proof.ResultArray
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The idealized reference likewise: its run, with the result forgotten. -/
theorem frame_referenceIdeal : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- Both programs compute the scaled prototypes by the same operations on the same arguments: one function. -/
theorem shared_protos (a0 : FVec Ideal Cert.KernelIdeal.S640x16x256 .f32) (a2 : IVec Cert.KernelIdeal.S640 32) :
    Cert.ReferenceIdeal.Hand.protos a0 a2 = Cert.KernelIdeal.Table.protos a0 a2 := rfl

/-- From memories that agree on the arguments both programs end with the matching distances of the queries
    and the scaled prototypes: the kernel's result array by the cover of its blocks, the reference's by its
    run read index by index. -/
theorem algebraic : Cert.algebraic_KernelIdeal_ReferenceIdeal := by
  intro m ρ m' ρ' _ hagree
  refine ⟨fun c => Cert.KernelIdeal.ResultValue.kernelResult m c, Cert.KernelIdeal.ResultValue.run m ρ, ?_⟩
  refine (θ_run Cert.ReferenceIdeal.defs _ _).mono (fun _ h c => ⟨(h c).1.trans ?_, (h c).2⟩)
    (Cert.ReferenceIdeal.Hand.run m' ρ')
  rw [Cert.ReferenceIdeal.RefValue.reference_result, (hagree c).1, (hagree c).2.1, (hagree c).2.2]
  exact congrArg (Cert.Matching.result _) (shared_protos _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
